-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S524288 : Shape := ⟨1, ![524288]⟩
abbrev S8192x7 : Shape := ⟨2, ![8192, 7]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S524288 : S_.BroadcastsInDim S524288 (![] : Fin 0 → Fin S524288.rank)
  reducesTo_S524288_S_d0 : S524288.ReducesTo [0] S_
  bcast_S_S8192x7 : S_.BroadcastsInDim S8192x7 (![] : Fin 0 → Fin S8192x7.rank)
  reducesTo_S8192x7_S_d0_1 : S8192x7.ReducesTo [0, 1] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg9 : FVec F S16x7 .f32) (main_arg10 : FVec F S7 .f32) (main_v33 : IVec S_ 1) : IVec S_ 1 :=
  let main_v34 : FVec F S16x7 .f32 := Host.absf main_arg9
  let main_cst_12 : FVec F S_ .f32 := constant S_ .f32 0x7F800000#32
  let main_v35 : FVec F S16x7 .f32 := broadcastInDim S16x7 ![] bcast_S_S16x7 main_cst_12
  let main_v36 : IVec S16x7 1 := cmpf .olt main_v34 main_v35
  let main_c_13 : IVec S_ 1 := constantI S_ 1 1#1
  let main_v37 : IVec S_ 1 := (fun x v => Host.reduce IntOp.andi x v reducesTo_S16x7_S_d0_1 h_S_) main_v36 main_c_13
  let main_v38 : IVec S_ 1 := andi main_v33 main_v37
  let main_v39 : FVec F S7 .f32 := Host.absf main_arg10
  let main_cst_14 : FVec F S_ .f32 := constant S_ .f32 0x7F800000#32
  let main_v40 : FVec F S7 .f32 := broadcastInDim S7 ![] bcast_S_S7 main_cst_14
  let main_v41 : IVec S7 1 := cmpf .olt main_v39 main_v40
  let main_c_15 : IVec S_ 1 := constantI S_ 1 1#1
  let main_v42 : IVec S_ 1 := (fun x v => Host.reduce IntOp.andi x v reducesTo_S7_S_d0 h_S_) main_v41 main_c_15
  let main_v43 : IVec S_ 1 := andi main_v38 main_v42
  main_v43

def fn_part1 {F : FTy → Type} [FloatOps F] (main_arg6 : FVec F S16 .f32) (main_arg7 : FVec F S16x7 .f32) (main_arg8 : FVec F S7 .f32) (main_arg9 : FVec F S16x7 .f32) (main_arg10 : FVec F S7 .f32) (main_v13 : IVec S_ 1) (main_v16 : IVec S512x16 1) : IVec S_ 1 :=
  let main_c_5 : IVec S_ 1 := constantI S_ 1 1#1
  let main_v17 : IVec S_ 1 := (fun x v => Host.reduce IntOp.andi x v reducesTo_S512x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x7 .f32 := Host.absf main_arg7
  let main_cst_8 : FVec F S_ .f32 := constant S_ .f32 0x7F800000#32
  let main_v25 : FVec F S16x7 .f32 := broadcastInDim S16x7 ![] bcast_S_S16x7 main_cst_8
  let main_v26 : IVec S16x7 1 := cmpf .olt main_v24 main_v25
  let main_c_9 : IVec S_ 1 := constantI S_ 1 1#1
  let main_v27 : IVec S_ 1 := (fun x v => Host.reduce IntOp.andi x v reducesTo_S16x7_S_d0_1 h_S_) main_v26 main_c_9
  let main_v28 : IVec S_ 1 := andi main_v23 main_v27
  let main_v29 : FVec F S7 .f32 := Host.absf main_arg8
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  fn_part2 (F := F) main_arg9 main_arg10 main_v33

def fn {F : FTy → Type} [FloatOps F] (main_arg0 : FVec F S8192x512 .f32) (main_arg1 : IVec S524288 32) (main_arg2 : IVec S524288 32) (main_arg3 : FVec F S524288 .f32) (main_arg4 : FVec F S8192x7 .f32) (main_arg5 : FVec F S512x16 .f32) (main_arg6 : FVec F S16 .f32) (main_arg7 : FVec F S16x7 .f32) (main_arg8 : FVec F S7 .f32) (main_arg9 : FVec F S16x7 .f32) (main_arg10 : FVec F S7 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S524288 .f32 := Host.absf main_arg3
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S8192x7 .f32 := Host.absf main_arg4
  let main_cst_2 : FVec F S_ .f32 := constant S_ .f32 0x7F800000#32
  let main_v10 : FVec F S8192x7 .f32 := broadcastInDim S8192x7 ![] bcast_S_S8192x7 main_cst_2
  let main_v11 : IVec S8192x7 1 := cmpf .olt main_v9 main_v10
  let main_c_3 : IVec S_ 1 := constantI S_ 1 1#1
  let main_v12 : IVec S_ 1 := (fun x v => Host.reduce IntOp.andi x v reducesTo_S8192x7_S_d0_1 h_S_) main_v11 main_c_3
  let main_v13 : IVec S_ 1 := andi main_v8 main_v12
  let main_v14 : FVec F S512x16 .f32 := Host.absf main_arg5
  let main_cst_4 : FVec F S_ .f32 := constant S_ .f32 0x7F800000#32
  let main_v15 : FVec F S512x16 .f32 := broadcastInDim S512x16 ![] bcast_S_S512x16 main_cst_4
  let main_v16 : IVec S512x16 1 := cmpf .olt main_v14 main_v15
  fn_part1 (F := F) main_arg6 main_arg7 main_arg8 main_arg9 main_arg10 main_v13 main_v16
-- ==== Kernel.lean ====
abbrev S8192x512 : Shape := ⟨2, ![8192, 512]⟩
abbrev S524288 : Shape := ⟨1, ![524288]⟩
abbrev S8192x7 : Shape := ⟨2, ![8192, 7]⟩
abbrev S512x16 : Shape := ⟨2, ![512, 16]⟩
abbrev S16 : Shape := ⟨1, ![16]⟩
abbrev S16x7 : Shape := ⟨2, ![16, 7]⟩
abbrev S7 : Shape := ⟨1, ![7]⟩
abbrev S8192x16 : Shape := ⟨2, ![8192, 16]⟩
abbrev S2048x512 : Shape := ⟨2, ![2048, 512]⟩
abbrev S2048x16 : Shape := ⟨2, ![2048, 16]⟩
abbrev S524288x1 : Shape := ⟨2, ![524288, 1]⟩
abbrev S_ : Shape := ⟨0, ![]⟩
abbrev S524288x16 : Shape := ⟨2, ![524288, 16]⟩
abbrev S1x16 : Shape := ⟨2, ![1, 16]⟩
abbrev S16x14 : Shape := ⟨2, ![16, 14]⟩
abbrev S8192x14 : Shape := ⟨2, ![8192, 14]⟩
abbrev S2048x14 : Shape := ⟨2, ![2048, 14]⟩
abbrev S524288x14 : Shape := ⟨2, ![524288, 14]⟩
abbrev S1x7 : Shape := ⟨2, ![1, 7]⟩
abbrev S8192x8192 : Shape := ⟨2, ![8192, 8192]⟩
abbrev S1024x7 : Shape := ⟨2, ![1024, 7]⟩
abbrev S1024x1024 : Shape := ⟨2, ![1024, 1024]⟩
abbrev S67108864 : Shape := ⟨1, ![67108864]⟩

abbrev nBuf : Space → Nat
  | .hbm => 63
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S524288, .i32⟩
  | .hbm, ⟨2, _⟩ => ⟨S524288, .i32⟩
  | .hbm, ⟨3, _⟩ => ⟨S524288, .f32⟩
  | .hbm, ⟨4, _⟩ => ⟨S8192x7, .f32⟩
  | .hbm, ⟨5, _⟩ => ⟨S512x16, .f32⟩
  | .hbm, ⟨6, _⟩ => ⟨S16, .f32⟩
  | .hbm, ⟨7, _⟩ => ⟨S16x7, .f32⟩
  | .hbm, ⟨8, _⟩ => ⟨S7, .f32⟩
  | .hbm, ⟨9, _⟩ => ⟨S16x7, .f32⟩
  | .hbm, ⟨10, _⟩ => ⟨S7, .f32⟩
  | .hbm, ⟨11, _⟩ => ⟨S8192x16, .f32⟩
  | .hbm, ⟨12, _⟩ => ⟨S524288x1, .f32⟩
  | .hbm, ⟨13, _⟩ => ⟨S_, .i32⟩
  | .hbm, ⟨14, _⟩ => ⟨S524288, .i32⟩
  | .hbm, ⟨15, _⟩ => ⟨S524288, .i1⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S524288x1, .i32⟩
  | .hbm, ⟨21, _⟩ => ⟨S524288x16, .f32⟩
  | .hbm, ⟨22, _⟩ => ⟨S524288x16, .f32⟩
  | .hbm, ⟨23, _⟩ => ⟨S524288x16, .f32⟩
  | .hbm, ⟨24, _⟩ => ⟨S_, .f32⟩
  | .hbm, ⟨25, _⟩ => ⟨S8192x16, .f32⟩
  | .hbm, ⟨26, _⟩ => ⟨S524288x1, .i32⟩
  | .hbm, ⟨27, _⟩ => ⟨S8192x16, .f32⟩
  | .hbm, ⟨28, _⟩ => ⟨S1x16, .f32⟩
  | .hbm, ⟨29, _⟩ => ⟨S8192x16, .f32⟩
  | .hbm, ⟨30, _⟩ => ⟨S8192x16, .f32⟩
  | .hbm, ⟨31, _⟩ => ⟨S_, .f32⟩
  | .hbm, ⟨32, _⟩ => ⟨S8192x16, .f32⟩
  | .hbm, ⟨33, _⟩ => ⟨S8192x16, .f32⟩
  | .hbm, ⟨34, _⟩ => ⟨S16x14, .f32⟩
  | .hbm, ⟨35, _⟩ => ⟨S8192x14, .f32⟩
  | .hbm, ⟨36, _⟩ => ⟨S_, .i32⟩
  | .hbm, ⟨37, _⟩ => ⟨S524288, .i32⟩
  | .hbm, ⟨38, _⟩ => ⟨S524288, .i1⟩
  | .hbm, ⟨39, _⟩ => ⟨S_, .i32⟩
  | .hbm, ⟨40, _⟩ => ⟨S524288, .i32⟩
  | .hbm, ⟨41, _⟩ => ⟨S524288, .i32⟩
  | .hbm, ⟨42, _⟩ => ⟨S524288, .i32⟩
  | .hbm, ⟨43, _⟩ => ⟨S524288x1, .i32⟩
  | .hbm, ⟨44, _⟩ => ⟨S524288x14, .f32⟩
  | .hbm, ⟨45, _⟩ => ⟨S524288x14, .f32⟩
  | .hbm, ⟨46, _⟩ => ⟨S524288x14, .f32⟩
  | .hbm, ⟨47, _⟩ => ⟨S_, .f32⟩
  | .hbm, ⟨48, _⟩ => ⟨S8192x14, .f32⟩
  | .hbm, ⟨49, _⟩ => ⟨S524288x1, .i32⟩
  | .hbm, ⟨50, _⟩ => ⟨S8192x14, .f32⟩
  | .hbm, ⟨51, _⟩ => ⟨S8192x7, .f32⟩
  | .hbm, ⟨52, _⟩ => ⟨S1x7, .f32⟩
  | .hbm, ⟨53, _⟩ => ⟨S8192x7, .f32⟩
  | .hbm, ⟨54, _⟩ => ⟨S8192x7, .f32⟩
  | .hbm, ⟨55, _⟩ => ⟨S8192x7, .f32⟩
  | .hbm, ⟨56, _⟩ => ⟨S1x7, .f32⟩
  | .hbm, ⟨57, _⟩ => ⟨S8192x7, .f32⟩
  | .hbm, ⟨58, _⟩ => ⟨S8192x7, .f32⟩
  | .hbm, ⟨59, _⟩ => ⟨S8192x7, .f32⟩
  | .hbm, ⟨60, _⟩ => ⟨S8192x7, .f32⟩
  | .hbm, ⟨61, _⟩ => ⟨S8192x8192, .f32⟩
  | .hbm, ⟨62, _⟩ => ⟨S67108864, .f32⟩
  | .local _ .vmem, ⟨0, _⟩ => ⟨S2048x512, .f32⟩
  | .local _ .vmem, ⟨1, _⟩ => ⟨S2048x512, .f32⟩
  | .local _ .vmem, ⟨2, _⟩ => ⟨S512x16, .f32⟩
  | .local _ .vmem, ⟨3, _⟩ => ⟨S2048x16, .f32⟩
  | .local _ .vmem, ⟨4, _⟩ => ⟨S2048x16, .f32⟩
  | .local _ .vmem, ⟨5, _⟩ => ⟨S2048x16, .f32⟩
  | .local _ .vmem, ⟨6, _⟩ => ⟨S2048x16, .f32⟩
  | .local _ .vmem, ⟨7, _⟩ => ⟨S16x14, .f32⟩
  | .local _ .vmem, ⟨8, _⟩ => ⟨S2048x14, .f32⟩
  | .local _ .vmem, ⟨9, _⟩ => ⟨S2048x14, .f32⟩
  | .local _ .vmem, ⟨10, _⟩ => ⟨S1024x7, .f32⟩
  | .local _ .vmem, ⟨11, _⟩ => ⟨S1024x7, .f32⟩
  | .local _ .vmem, ⟨12, _⟩ => ⟨S1024x7, .f32⟩
  | .local _ .vmem, ⟨13, _⟩ => ⟨S1024x7, .f32⟩
  | .local _ .vmem, ⟨14, _⟩ => ⟨S1024x1024, .f32⟩
  | .local _ .vmem, ⟨15, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x14 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x14 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x7 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2048x16_S2048x16_0_0 : ∀ a, (![0, 0] : Fin 2 → Nat) a + S2048x16.size a ≤ S2048x16.size a
  h_S2048x16 : 0 < S2048x16.numel
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x16_0_1 : S524288x1.BroadcastsInDim S524288x16 (![0, 1] : Fin 2 → Fin S524288x16.rank)
  bcast_S_S8192x16 : S_.BroadcastsInDim S8192x16 (![] : Fin 0 → Fin S8192x16.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  concatenates_S16x7_S16x7_S16x14_d1 : Shape.Concatenates [S16x7, S16x7] S16x14 1
  shapeCasts_S2048x16_S2048x16 : S2048x16.ShapeCasts S2048x16
  inb_S16x14_S16x14_0_0 : ∀ a, (![0, 0] : Fin 2 → Nat) a + S16x14.size a ≤ S16x14.size a
  h_S16x14 : 0 < S16x14.numel
  shapeCasts_S16x14_S16x14 : S16x14.ShapeCasts S16x14
  inb_S2048x14_S2048x14_0_0 : ∀ a, (![0, 0] : Fin 2 → Nat) a + S2048x14.size a ≤ S2048x14.size a
  h_S2048x14 : 0 < S2048x14.numel
  bcast_S524288x1_S524288x14_0_1 : S524288x1.BroadcastsInDim S524288x14 (![0, 1] : Fin 2 → Fin S524288x14.rank)
  bcast_S_S8192x14 : S_.BroadcastsInDim S8192x14 (![] : Fin 0 → Fin S8192x14.rank)
  slices_S8192x14_S8192x7_0_0 : S8192x14.Slices ![0, 0] S8192x7
  bcast_S7_S1x7_1 : S7.BroadcastsInDim S1x7 (![1] : Fin 1 → Fin S1x7.rank)
  bcast_S1x7_S8192x7_0_1 : S1x7.BroadcastsInDim S8192x7 (![0, 1] : Fin 2 → Fin S8192x7.rank)
  slices_S8192x14_S8192x7_0_7 : S8192x14.Slices ![0, 7] S8192x7
  inb_S1024x7_S1024x7_0_0 : ∀ a, (![0, 0] : Fin 2 → Nat) a + S1024x7.size a ≤ S1024x7.size a
  h_S1024x7 : 0 < S1024x7.numel
  shapeCasts_S1024x7_S1024x7 : S1024x7.ShapeCasts S1024x7
  inb_S1024x1024_S1024x1024_0_0 : ∀ a, (![0, 0] : Fin 2 → Nat) a + S1024x1024.size a ≤ S1024x1024.size a
  h_S1024x1024 : 0 < S1024x1024.numel
  shapeCasts_S8192x8192_S67108864 : S8192x8192.ShapeCasts S67108864
  dot_S2048x512_S512x16_S2048x16_1_0_0_1_n_n_wf : DotDims.WF S2048x512 S512x16 S2048x16 [1] [0] [0] [1] [] []
  gather_S8192x16_S524288x1_S524288x16_1_0_n_n_0_1_116_wf : GatherDims.WF S8192x16 S524288x1 S524288x16 [1] [0] [] [0] [] 1 ![1, 16]
  scatter_S8192x16_S524288x1_S524288x16_1_0_0_1_wf : ScatterDims.WF S8192x16 S524288x1 S524288x16 [1] [0] [0] 1
  dot_S2048x16_S16x14_S2048x14_1_0_0_1_n_n_wf : DotDims.WF S2048x16 S16x14 S2048x14 [1] [0] [0] [1] [] []
  gather_S8192x14_S524288x1_S524288x14_1_0_n_n_0_1_114_wf : GatherDims.WF S8192x14 S524288x1 S524288x14 [1] [0] [] [0] [] 1 ![1, 14]
  scatter_S8192x14_S524288x1_S524288x14_1_0_0_1_wf : ScatterDims.WF S8192x14 S524288x1 S524288x14 [1] [0] [0] 1
  dot_S1024x7_S1024x7_S1024x1024_1_1_0_0_n_n_wf : DotDims.WF S1024x7 S1024x7 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S8192x16.size a
  hwx0_2 : ∀ i : grid0.Coords, EltTy.bits .f32 = 32 ∨ (Rect.block (s := S8192x16) S2048x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x16.size a ≤ S8192x16.size a
  hwx1_0 : ∀ i : grid1.Coords, EltTy.bits .f32 = 32 ∨ (Rect.block (s := S8192x16) S2048x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x14.size a ≤ S16x14.size a
  hwx1_1 : ∀ i : grid1.Coords, EltTy.bits .f32 = 32 ∨ (Rect.block (s := S16x14) S16x14.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x14.size a ≤ S8192x14.size a
  hwx1_2 : ∀ i : grid1.Coords, EltTy.bits .f32 = 32 ∨ (Rect.block (s := S8192x14) S2048x14.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x7.size a ≤ S8192x7.size a
  hwx2_0 : ∀ i : grid2.Coords, EltTy.bits .f32 = 32 ∨ (Rect.block (s := S8192x7) S1024x7.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x7.size a ≤ S8192x7.size a
  hwx2_1 : ∀ i : grid2.Coords, EltTy.bits .f32 = 32 ∨ (Rect.block (s := S8192x7) S1024x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf
def gather_S8192x16_S524288x1_S524288x16_1_0_n_n_0_1_116 : GatherDims S8192x16 S524288x1 S524288x16 where
  offsetDims := [1]
  collapsedSliceDims := [0]
  operandBatchingDims := []
  startIndicesBatchingDims := []
  startIndexMap := [0]
  indexVectorDim := 1
  sliceSizes := ![1, 16]
  wf := gather_S8192x16_S524288x1_S524288x16_1_0_n_n_0_1_116_wf
def scatter_S8192x16_S524288x1_S524288x16_1_0_0_1 : ScatterDims S8192x16 S524288x1 S524288x16 where
  updateWindowDims := [1]
  insertedWindowDims := [0]
  scatterDimsToOperandDims := [0]
  indexVectorDim := 1
  wf := scatter_S8192x16_S524288x1_S524288x16_1_0_0_1_wf
def dot_S2048x16_S16x14_S2048x14_1_0_0_1_n_n : DotDims S2048x16 S16x14 S2048x14 where
  lhsContracting := [1]
  rhsContracting := [0]
  lhsNonContracting := [0]
  rhsNonContracting := [1]
  lhsBatch := []
  rhsBatch := []
  wf := dot_S2048x16_S16x14_S2048x14_1_0_0_1_n_n_wf
def gather_S8192x14_S524288x1_S524288x14_1_0_n_n_0_1_114 : GatherDims S8192x14 S524288x1 S524288x14 where
  offsetDims := [1]
  collapsedSliceDims := [0]
  operandBatchingDims := []
  startIndicesBatchingDims := []
  startIndexMap := [0]
  indexVectorDim := 1
  sliceSizes := ![1, 14]
  wf := gather_S8192x14_S524288x1_S524288x14_1_0_n_n_0_1_114_wf
def scatter_S8192x14_S524288x1_S524288x14_1_0_0_1 : ScatterDims S8192x14 S524288x1 S524288x14 where
  updateWindowDims := [1]
  insertedWindowDims := [0]
  scatterDimsToOperandDims := [0]
  indexVectorDim := 1
  wf := scatter_S8192x14_S524288x1_S524288x14_1_0_0_1_wf
def dot_S1024x7_S1024x7_S1024x1024_1_1_0_0_n_n : DotDims S1024x7 S1024x7 S1024x1024 where
  lhsContracting := [1]
  rhsContracting := [1]
  lhsNonContracting := [0]
  rhsNonContracting := [0]
  lhsBatch := []
  rhsBatch := []
  wf := dot_S1024x7_S1024x7_S1024x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2048x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S16x14.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2048x14.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S1024x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1024x7.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S524288 : Shape := ⟨1, ![524288]⟩
abbrev S8192x7 : Shape := ⟨2, ![8192, 7]⟩
abbrev S512x16 : Shape := ⟨2, ![512, 16]⟩
abbrev S16 : Shape := ⟨1, ![16]⟩
abbrev S16x7 : Shape := ⟨2, ![16, 7]⟩
abbrev S7 : Shape := ⟨1, ![7]⟩
abbrev S8192x16 : Shape := ⟨2, ![8192, 16]⟩
abbrev S524288x1 : Shape := ⟨2, ![524288, 1]⟩
abbrev S_ : Shape := ⟨0, ![]⟩
abbrev S524288x16 : Shape := ⟨2, ![524288, 16]⟩
abbrev S1x16 : Shape := ⟨2, ![1, 16]⟩
abbrev S524288x7 : Shape := ⟨2, ![524288, 7]⟩
abbrev S1x7 : Shape := ⟨2, ![1, 7]⟩
abbrev S7x8192 : Shape := ⟨2, ![7, 8192]⟩
abbrev S8192x8192 : Shape := ⟨2, ![8192, 8192]⟩
abbrev S67108864 : Shape := ⟨1, ![67108864]⟩

abbrev nBuf : Space → Nat
  | .hbm => 79
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S524288, .i32⟩
  | .hbm, ⟨2, _⟩ => ⟨S524288, .i32⟩
  | .hbm, ⟨3, _⟩ => ⟨S524288, .f32⟩
  | .hbm, ⟨4, _⟩ => ⟨S8192x7, .f32⟩
  | .hbm, ⟨5, _⟩ => ⟨S512x16, .f32⟩
  | .hbm, ⟨6, _⟩ => ⟨S16, .f32⟩
  | .hbm, ⟨7, _⟩ => ⟨S16x7, .f32⟩
  | .hbm, ⟨8, _⟩ => ⟨S7, .f32⟩
  | .hbm, ⟨9, _⟩ => ⟨S16x7, .f32⟩
  | .hbm, ⟨10, _⟩ => ⟨S7, .f32⟩
  | .hbm, ⟨11, _⟩ => ⟨S8192x16, .f32⟩
  | .hbm, ⟨12, _⟩ => ⟨S524288x1, .f32⟩
  | .hbm, ⟨13, _⟩ => ⟨S_, .i32⟩
  | .hbm, ⟨14, _⟩ => ⟨S524288, .i32⟩
  | .hbm, ⟨15, _⟩ => ⟨S524288, .i1⟩
  | .hbm, ⟨16, _⟩ => ⟨S_, .i32⟩
  | .hbm, ⟨17, _⟩ => ⟨S524288, .i32⟩
  | .hbm, ⟨18, _⟩ => ⟨S524288, .i32⟩
  | .hbm, ⟨19, _⟩ => ⟨S524288, .i32⟩
  | .hbm, ⟨20, _⟩ => ⟨S524288x1, .i32⟩
  | .hbm, ⟨21, _⟩ => ⟨S524288x16, .f32⟩
  | .hbm, ⟨22, _⟩ => ⟨S524288x16, .f32⟩
  | .hbm, ⟨23, _⟩ => ⟨S524288x16, .f32⟩
  | .hbm, ⟨24, _⟩ => ⟨S_, .f32⟩
  | .hbm, ⟨25, _⟩ => ⟨S8192x16, .f32⟩
  | .hbm, ⟨26, _⟩ => ⟨S524288x1, .i32⟩
  | .hbm, ⟨27, _⟩ => ⟨S8192x16, .f32⟩
  | .hbm, ⟨28, _⟩ => ⟨S1x16, .f32⟩
  | .hbm, ⟨29, _⟩ => ⟨S8192x16, .f32⟩
  | .hbm, ⟨30, _⟩ => ⟨S8192x16, .f32⟩
  | .hbm, ⟨31, _⟩ => ⟨S_, .f32⟩
  | .hbm, ⟨32, _⟩ => ⟨S8192x16, .f32⟩
  | .hbm, ⟨33, _⟩ => ⟨S8192x16, .f32⟩
  | .hbm, ⟨34, _⟩ => ⟨S8192x7, .f32⟩
  | .hbm, ⟨35, _⟩ => ⟨S524288x1, .f32⟩
  | .hbm, ⟨36, _⟩ => ⟨S_, .i32⟩
  | .hbm, ⟨37, _⟩ => ⟨S524288, .i32⟩
  | .hbm, ⟨38, _⟩ => ⟨S524288, .i1⟩
  | .hbm, ⟨39, _⟩ => ⟨S_, .i32⟩
  | .hbm, ⟨40, _⟩ => ⟨S524288, .i32⟩
  | .hbm, ⟨41, _⟩ => ⟨S524288, .i32⟩
  | .hbm, ⟨42, _⟩ => ⟨S524288, .i32⟩
  | .hbm, ⟨43, _⟩ => ⟨S524288x1, .i32⟩
  | .hbm, ⟨44, _⟩ => ⟨S524288x7, .f32⟩
  | .hbm, ⟨45, _⟩ => ⟨S524288x7, .f32⟩
  | .hbm, ⟨46, _⟩ => ⟨S524288x7, .f32⟩
  | .hbm, ⟨47, _⟩ => ⟨S_, .f32⟩
  | .hbm, ⟨48, _⟩ => ⟨S8192x7, .f32⟩
  | .hbm, ⟨49, _⟩ => ⟨S524288x1, .i32⟩
  | .hbm, ⟨50, _⟩ => ⟨S8192x7, .f32⟩
  | .hbm, ⟨51, _⟩ => ⟨S1x7, .f32⟩
  | .hbm, ⟨52, _⟩ => ⟨S8192x7, .f32⟩
  | .hbm, ⟨53, _⟩ => ⟨S8192x7, .f32⟩
  | .hbm, ⟨54, _⟩ => ⟨S8192x7, .f32⟩
  | .hbm, ⟨55, _⟩ => ⟨S524288x1, .f32⟩
  | .hbm, ⟨56, _⟩ => ⟨S_, .i32⟩
  | .hbm, ⟨57, _⟩ => ⟨S524288, .i32⟩
  | .hbm, ⟨58, _⟩ => ⟨S524288, .i1⟩
  | .hbm, ⟨59, _⟩ => ⟨S_, .i32⟩
  | .hbm, ⟨60, _⟩ => ⟨S524288, .i32⟩
  | .hbm, ⟨61, _⟩ => ⟨S524288, .i32⟩
  | .hbm, ⟨62, _⟩ => ⟨S524288, .i32⟩
  | .hbm, ⟨63, _⟩ => ⟨S524288x1, .i32⟩
  | .hbm, ⟨64, _⟩ => ⟨S524288x7, .f32⟩
  | .hbm, ⟨65, _⟩ => ⟨S524288x7, .f32⟩
  | .hbm, ⟨66, _⟩ => ⟨S524288x7, .f32⟩
  | .hbm, ⟨67, _⟩ => ⟨S_, .f32⟩
  | .hbm, ⟨68, _⟩ => ⟨S8192x7, .f32⟩
  | .hbm, ⟨69, _⟩ => ⟨S524288x1, .i32⟩
  | .hbm, ⟨70, _⟩ => ⟨S8192x7, .f32⟩
  | .hbm, ⟨71, _⟩ => ⟨S1x7, .f32⟩
  | .hbm, ⟨72, _⟩ => ⟨S8192x7, .f32⟩
  | .hbm, ⟨73, _⟩ => ⟨S8192x7, .f32⟩
  | .hbm, ⟨74, _⟩ => ⟨S8192x7, .f32⟩
  | .hbm, ⟨75, _⟩ => ⟨S8192x7, .f32⟩
  | .hbm, ⟨76, _⟩ => ⟨S7x8192, .f32⟩
  | .hbm, ⟨77, _⟩ => ⟨S8192x8192, .f32⟩
  | .hbm, ⟨78, _⟩ => ⟨S67108864, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_4 : Ref sig .tc := ⟨.hbm, 56, rfl⟩
abbrev main_v37 : Ref sig .tc := ⟨.hbm, 57, rfl⟩
abbrev main_v38 : Ref sig .tc := ⟨.hbm, 58, rfl⟩
abbrev main_c_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x16_0_1 : S524288x1.BroadcastsInDim S524288x16 (![0, 1] : Fin 2 → Fin S524288x16.rank)
  bcast_S_S8192x16 : S_.BroadcastsInDim S8192x16 (![] : Fin 0 → Fin S8192x16.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S524288x1_S524288x7_0_1 : S524288x1.BroadcastsInDim S524288x7 (![0, 1] : Fin 2 → Fin S524288x7.rank)
  bcast_S_S8192x7 : S_.BroadcastsInDim S8192x7 (![] : Fin 0 → Fin S8192x7.rank)
  bcast_S7_S1x7_1 : S7.BroadcastsInDim S1x7 (![1] : Fin 1 → Fin S1x7.rank)
  bcast_S1x7_S8192x7_0_1 : S1x7.BroadcastsInDim S8192x7 (![0, 1] : Fin 2 → Fin S8192x7.rank)
  transposes_S8192x7_S7x8192_1_0 : S8192x7.Transposes [1, 0] S7x8192
  shapeCasts_S8192x8192_S67108864 : S8192x8192.ShapeCasts S67108864
  dot_S8192x512_S512x16_S8192x16_1_0_0_1_n_n_wf : DotDims.WF S8192x512 S512x16 S8192x16 [1] [0] [0] [1] [] []
  gather_S8192x16_S524288x1_S524288x16_1_0_n_n_0_1_116_wf : GatherDims.WF S8192x16 S524288x1 S524288x16 [1] [0] [] [0] [] 1 ![1, 16]
  scatter_S8192x16_S524288x1_S524288x16_1_0_0_1_wf : ScatterDims.WF S8192x16 S524288x1 S524288x16 [1] [0] [0] 1
  dot_S8192x16_S16x7_S8192x7_1_0_0_1_n_n_wf : DotDims.WF S8192x16 S16x7 S8192x7 [1] [0] [0] [1] [] []
  gather_S8192x7_S524288x1_S524288x7_1_0_n_n_0_1_17_wf : GatherDims.WF S8192x7 S524288x1 S524288x7 [1] [0] [] [0] [] 1 ![1, 7]
  scatter_S8192x7_S524288x1_S524288x7_1_0_0_1_wf : ScatterDims.WF S8192x7 S524288x1 S524288x7 [1] [0] [0] 1
  dot_S8192x7_S7x8192_S8192x8192_1_0_0_1_n_n_wf : DotDims.WF S8192x7 S7x8192 S8192x8192 [1] [0] [0] [1] [] []

variable [Facts₀]

def dot_S8192x512_S512x16_S8192x16_1_0_0_1_n_n : DotDims S8192x512 S512x16 S8192x16 where
  lhsContracting := [1]
  rhsContracting := [0]
  lhsNonContracting := [0]
  rhsNonContracting := [1]
  lhsBatch := []
  rhsBatch := []
  wf := dot_S8192x512_S512x16_S8192x16_1_0_0_1_n_n_wf
def gather_S8192x16_S524288x1_S524288x16_1_0_n_n_0_1_116 : GatherDims S8192x16 S524288x1 S524288x16 where
  offsetDims := [1]
  collapsedSliceDims := [0]
  operandBatchingDims := []
  startIndicesBatchingDims := []
  startIndexMap := [0]
  indexVectorDim := 1
  sliceSizes := ![1, 16]
  wf := gather_S8192x16_S524288x1_S524288x16_1_0_n_n_0_1_116_wf
def scatter_S8192x16_S524288x1_S524288x16_1_0_0_1 : ScatterDims S8192x16 S524288x1 S524288x16 where
  updateWindowDims := [1]
  insertedWindowDims := [0]
  scatterDimsToOperandDims := [0]
  indexVectorDim := 1
  wf := scatter_S8192x16_S524288x1_S524288x16_1_0_0_1_wf
def dot_S8192x16_S16x7_S8192x7_1_0_0_1_n_n : DotDims S8192x16 S16x7 S8192x7 where
  lhsContracting := [1]
  rhsContracting := [0]
  lhsNonContracting := [0]
  rhsNonContracting := [1]
  lhsBatch := []
  rhsBatch := []
  wf := dot_S8192x16_S16x7_S8192x7_1_0_0_1_n_n_wf
def gather_S8192x7_S524288x1_S524288x7_1_0_n_n_0_1_17 : GatherDims S8192x7 S524288x1 S524288x7 where
  offsetDims := [1]
  collapsedSliceDims := [0]
  operandBatchingDims := []
  startIndicesBatchingDims := []
  startIndexMap := [0]
  indexVectorDim := 1
  sliceSizes := ![1, 7]
  wf := gather_S8192x7_S524288x1_S524288x7_1_0_n_n_0_1_17_wf
def scatter_S8192x7_S524288x1_S524288x7_1_0_0_1 : ScatterDims S8192x7 S524288x1 S524288x7 where
  updateWindowDims := [1]
  insertedWindowDims := [0]
  scatterDimsToOperandDims := [0]
  indexVectorDim := 1
  wf := scatter_S8192x7_S524288x1_S524288x7_1_0_0_1_wf
def dot_S8192x7_S7x8192_S8192x8192_1_0_0_1_n_n : DotDims S8192x7 S7x8192 S8192x8192 where
  lhsContracting := [1]
  rhsContracting := [0]
  lhsNonContracting := [0]
  rhsNonContracting := [1]
  lhsBatch := []
  rhsBatch := []
  wf := dot_S8192x7_S7x8192_S8192x8192_1_0_0_1_n_n_wf

class Facts : Prop extends Facts₀ where

variable [Facts]
-- ==== Proof.K.Reg0.lean ====
/-
  Region 0 of the program's three kernel regions, at a parameter `V` (the contents of the core's buffers when the
  region is entered). This region multiplies the node features `X` (8192 × 512), 2048 rows at a grid point, by the first weight matrix `W1` (512 × 16), held whole.
  The body reads its two input blocks whole, multiplies them on the matrix unit into a zero accumulator, and
  stores the product over the whole output block; so after the body at a grid point the output's staging buffer
  holds the product of the two input blocks at that point, and each input's buffer still holds its block. With
  that as the proof data, the body's triple gives the obligation the launch asks for at every point.
-/
import proofs.«163352_j23356032156163_1_alg».proof.Proof.Gen.Kernel.Launch
import proofs.«163352_j23356032156163_1_alg».proof.Proof.Gen.Kernel.Skeleton
import proofs.«163352_j23356032156163_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its block at every point, fetched there or not: where it is not fetched
    its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right factor's staging buffer holds the whole right matrix at every point (it is fetched once, at the first). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2048x512 := Rect.unit (s := S2048x512) ![0, 0] S2048x512.size inb_S2048x512_S2048x512_0_0
abbrev r0_1 : Rect S512x16 := Rect.unit (s := S512x16) ![0, 0] S512x16.size inb_S512x16_S512x16_0_0
abbrev r0_2 : Rect S2048x16 := Rect.unit (s := S2048x16) ![0, 0] S2048x16.size inb_S2048x16_S2048x16_0_0

/-- The output's staging buffer after the body: the product of the two input blocks, stored whole. -/
def out0_2 (x0 : Vec F S2048x512 .f32) (x1 : Vec F S512x16 .f32) : Vec F S2048x16 .f32 :=
  View.canon [⟨r0_2, k0_pay1 (View.ld x0 r0_0) (View.ld x1 r0_1)⟩]

/-- The one store covers the output block. -/
theorem cover0_2 (p0 : Vec F S2048x16 .f32) (y : S2048x16.Idx) :
    ∃ pc ∈ ([⟨r0_2, p0⟩] : List (View.Piece (Elt F) S2048x16 .f32)), y ∈ pc.1.set :=
  View.cover_of_tiled [⟨r0_2, p0⟩] S2048x16.size (by rfl) y

/-! ## The body's triple -/

set_option maxHeartbeats 1000000 in
/-- The body on whole staging buffers, the inputs' at contents `x0`, `x1` and the output's at anything, runs to the
    continuation with the inputs' as they were and the output's at the product `out0_2 x0 x1`. -/
theorem sound_kernel0 (c : Dev nD) (E : Set ℕ) (i : grid0.Coords) (arg1 : Memref sig .tc .vmem S2048x512 .f32) (harg1 : arg1.IsWhole) (arg2 : Memref sig .tc .vmem S512x16 .f32) (harg2 : arg2.IsWhole) (arg3 : Memref sig .tc .vmem S2048x16 .f32) (harg3 : arg3.IsWhole)
    (x0 : Vec F S2048x512 .f32) (x1 : Vec F S512x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of this region on core `c`: the arrays as the region finds them; after the body at point `t` each
    input's buffer at its block and the output's at the product of the two blocks; the scoped rest and the generator
    register pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the program's three kernel regions, at a parameter `V` (the contents of the core's buffers when the
  region is entered). This region multiplies the hidden layer (8192 × 16), 2048 rows at a grid point, by the two head matrices set side by side `[W2 | W3]` (16 × 14), held whole.
  The body reads its two input blocks whole, multiplies them on the matrix unit into a zero accumulator, and
  stores the product over the whole output block; so after the body at a grid point the output's staging buffer
  holds the product of the two input blocks at that point, and each input's buffer still holds its block. With
  that as the proof data, the body's triple gives the obligation the launch asks for at every point.
-/
import proofs.«163352_j23356032156163_1_alg».proof.Proof.Gen.Kernel.Launch
import proofs.«163352_j23356032156163_1_alg».proof.Proof.Gen.Kernel.Skeleton
import proofs.«163352_j23356032156163_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds its block at every point, fetched there or not: where it is not fetched
    its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right factor's staging buffer holds the whole right matrix at every point (it is fetched once, at the first). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2048x16 := Rect.unit (s := S2048x16) ![0, 0] S2048x16.size inb_S2048x16_S2048x16_0_0
abbrev r1_1 : Rect S16x14 := Rect.unit (s := S16x14) ![0, 0] S16x14.size inb_S16x14_S16x14_0_0
abbrev r1_2 : Rect S2048x14 := Rect.unit (s := S2048x14) ![0, 0] S2048x14.size inb_S2048x14_S2048x14_0_0

/-- The output's staging buffer after the body: the product of the two input blocks, stored whole. -/
def out1_2 (x0 : Vec F S2048x16 .f32) (x1 : Vec F S16x14 .f32) : Vec F S2048x14 .f32 :=
  View.canon [⟨r1_2, k1_pay1 (View.ld x0 r1_0) (View.ld x1 r1_1)⟩]

/-- The one store covers the output block. -/
theorem cover1_2 (p0 : Vec F S2048x14 .f32) (y : S2048x14.Idx) :
    ∃ pc ∈ ([⟨r1_2, p0⟩] : List (View.Piece (Elt F) S2048x14 .f32)), y ∈ pc.1.set :=
  View.cover_of_tiled [⟨r1_2, p0⟩] S2048x14.size (by rfl) y

/-! ## The body's triple -/

set_option maxHeartbeats 1000000 in
/-- The body on whole staging buffers, the inputs' at contents `x0`, `x1` and the output's at anything, runs to the
    continuation with the inputs' as they were and the output's at the product `out1_2 x0 x1`. -/
theorem sound_kernel1 (c : Dev nD) (E : Set ℕ) (i : grid1.Coords) (arg1 : Memref sig .tc .vmem S2048x16 .f32) (harg1 : arg1.IsWhole) (arg2 : Memref sig .tc .vmem S16x14 .f32) (harg2 : arg2.IsWhole) (arg3 : Memref sig .tc .vmem S2048x14 .f32) (harg3 : arg3.IsWhole)
    (x0 : Vec F S2048x16 .f32) (x1 : Vec F S16x14 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The proof data of this region on core `c`: the arrays as the region finds them; after the body at point `t` each
    input's buffer at its block and the output's at the product of the two blocks; the scoped rest and the generator
    register pass through untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/- REGION 2 of the kernel program's @main (the third pallas_call: the product of the latent matrix with its own
   transpose, on an 8 × 8 grid of 1024 × 1024 output blocks), at a PARAMETER `V` — the TensorCore's buffer contents
   when the region is entered. One array, the latent matrix, is read through TWO input windows (window 0 takes the row
   block of the output's row index, window 1 the row block of its column index), so the array's full share is dealt
   between them, a half each, when the region is entered and joined back when it is left.
   Here: each window's block at a point, what the body leaves in the output window's buffer, the body's triple,
   the proof data, the body obligation, and the passage between "every unscoped buffer at `V`" and the region's
   arrays beside the rest. -/
import proofs.«163352_j23356032156163_1_alg».proof.Proof.Gen.Kernel.Launch
import proofs.«163352_j23356032156163_1_alg».proof.Proof.Gen.Kernel.Skeleton
import proofs.«163352_j23356032156163_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (it is fetched only
    where the output's row block changes; in between its block index does not move), for any proof data whose array
    is `V`'s and whose body leaves the block in place; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1, fetched at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of an input block. -/
abbrev r2_0 : Rect S1024x7 := Rect.unit (s := S1024x7) ![0, 0] S1024x7.size inb_S1024x7_S1024x7_0_0
/-- The whole of the output block. -/
abbrev r2_1 : Rect S1024x1024 := Rect.unit (s := S1024x1024) ![0, 0] S1024x1024.size inb_S1024x1024_S1024x1024_0_0

/-! ## What the body leaves in the output window's buffer -/

/-- Window 2's staging buffer after the body, from the two input blocks: its one store, of the product of the first
    block with the transpose of the second, over the whole buffer. -/
def out2_2 (x0 x1 : Vec F S1024x7 .f32) : Vec F S1024x1024 .f32 :=
  View.canon [⟨r2_1, k2_pay1 (View.ld x0 r2_0) (View.ld x1 r2_0)⟩]

/-- The store covers the buffer. -/
theorem cover2_2 (p0 : Vec F S1024x1024 .f32) (y : S1024x1024.Idx) :
    ∃ pc ∈ ([⟨r2_1, p0⟩] : List (View.Piece (Elt F) S1024x1024 .f32)), y ∈ pc.1.set :=
  View.cover_of_tiled [⟨r2_1, p0⟩] S1024x1024.size (by rfl) y

/-! ## The body's triple -/

set_option maxHeartbeats 1000000 in
/-- The kernel body on whole staging memrefs, the two inputs' at read contents `x0`, `x1` and the output's at
    anything (the body reads it before it overwrites it), runs to the continuation holding the inputs' as they were
    and the output's at `out2_2 x0 x1`. -/
theorem sound_kernel2 (c : Dev nD) (E : Set ℕ) (i : grid2.Coords) (arg0 : Memref sig .tc .vmem S1024x7 .f32) (harg0 : arg0.IsWhole)
    (arg1 : Memref sig .tc .vmem S1024x7 .f32) (harg1 : arg1.IsWhole) (arg2 : Memref sig .tc .vmem S1024x1024 .f32) (harg2 : arg2.IsWhole)
    (x0 x1 : Vec F S1024x7 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__outer_kernel i arg0 harg0 arg1 harg1 arg2 harg2) K := by
  simp only [cc2__outer_kernel_eq_skeleton]; unfold cc2__outer_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the two input blocks; the invariant the
    scoped rest and the generator register, untouched; nothing owed; of the one array behind both input windows,
    window 0 holds the left half of the full share and window 1 the right half. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Nothing is owed at any point. -/
theorem owed2 (c : Dev nD) (t) : (dat2 V c).owed t = 0 := rfl

/-- The shares of the three windows' arrays. -/
theorem share2_0 (c : Dev nD) : (dat2 V c).share 0 = fullShare.left := rfl
theorem share2_1 (c : Dev nD) : (dat2 V c).share 1 = fullShare.right := rfl
theorem share2_2 (c : Dev nD) : (dat2 V c).share 2 = fullShare := rfl

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The region's arrays among the core's unscoped buffers

The three windows stand on two buffers: the latent matrix (windows 0 and 1) and the output (window 2). Entering the
region, the latent matrix's full share is split in its two halves, one per input window; leaving it, the halves —
both still at the entry contents, an input array being never written — are joined back. -/

/-- The two buffers behind the three windows' arrays. -/
theorem arrRefs2 : Finset.univ.image (Pipeline.arrRef spec2) = {main_v41, main_v42} := by decide

/-- The buffers behind the arrays, each whole at the full share at contents `V'`: the latent matrix and the output. -/
theorem arrBufs2_eq (c : Dev nD) (V' : (b : Ref sig .tc) → Buf (Elt F) ((c : Thread nD τ).loc b)) :
    (Pipeline.arrBufs spec2 c V' : sProp 𝕄)
      = iprop((((c : Thread nD τ).loc main_v41) ↦{fullShare} V' main_v41) ∗ (((c : Thread nD τ).loc main_v42) ↦{fullShare} V' main_v42)) := by
  unfold Pipeline.arrBufs
  rw [arrRefs2, bigSep_insert (by decide), bigSep_singleton]
  rfl

/-- The pipeline's arrays at contents `G`, window by window: each a whole buffer, held at the window's share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc (Pipeline.arrRef spec2 0)) ↦{fullShare.left} G 0)
          ∗ (((c : Thread nD τ).loc (Pipeline.arrRef spec2 1)) ↦{fullShare.right} G 1)
          ∗ (((c : Thread nD τ).loc (Pipeline.arrRef spec2 2)) ↦{fullShare} G 2)) := by
  unfold Dat.arrays
  -- windows 0 and 1 stand on the same whole array
  rw [bigSep_W2, (arr_whole2 0).set_eq_univ, (arr_whole2 2).set_eq_univ, share2_0, share2_1, share2_2]

/-- A core's unscoped buffers at contents `V'` are the buffers behind the region's arrays and the rest. -/
theorem unscopedBufs_split2 (c : Dev nD) (V' : (b : Ref sig .tc) → Buf (Elt F) ((c : Thread nD τ).loc b)) :
    (unscopedBufs c V' : sProp 𝕄) = iprop((Pipeline.arrBufs spec2 c V' : sProp 𝕄) ∗ Pipeline.unscopedRest spec2 c V') :=
  Pipeline.unscopedBufs_split₀ cfgs 2 winFacts₀2.arr_unscoped c V'

/-- ENTRY: a core's unscoped buffers at contents `V` are the region's arrays at the proof data's entry contents —
    the latent matrix's full share dealt to the two input windows, a half each — and the unscoped rest. -/
theorem entry2 (c : Dev nD) :
    (unscopedBufs c (V c) : sProp 𝕄) ⊢ iprop((dat2 V c).arrays ((dat2 V c).arrAt · 0) ∗ Pipeline.unscopedRest spec2 c (V c)) := by
  rw [unscopedBufs_split2, arrBufs2_eq, arrays2_eq]
  refine sep_mono ?_ .rfl
  iintro ⟨Hz, Ho⟩
  ihave Hs := (pointsTo_share (PosShare.mem_left_op_right fullShare)).1 $$ Hz
  icases Hs with ⟨Hl, Hr⟩
  isplitl [Hl]; · iexact Hl
  isplitl [Hr]; · iexact Hr
  iexact Ho

/-- EXIT: the region's arrays at what the pipeline leaves and the unscoped rest at `V` are the core's unscoped buffers
    at any valuation `V'` that has the arrays at those contents and agrees with `V` off them: the two halves of the
    latent matrix's share, both at the one contents `V'` names, join to the full share. -/
theorem exit2 (c : Dev nD) (V' : (b : Ref sig .tc) → Buf (Elt F) ((c : Thread nD τ).loc b))
    (hF : ∀ w, (dat2 V c).arrAt w cfg2.N = V' (Pipeline.arrRef spec2 w))
    (hrest : ∀ b, b ∉ Finset.univ.image (Pipeline.arrRef spec2) → V' b = V c b) :
    iprop((dat2 V c).arrays ((dat2 V c).arrAt · cfg2.N) ∗ Pipeline.unscopedRest spec2 c (V c)) ⊢ (unscopedBufs c V' : sProp 𝕄) := by
  rw [unscopedBufs_split2, arrBufs2_eq, arrays2_eq, hF 0, hF 1, hF 2]
  refine sep_mono ?_ (Entails.of_eq ?_)
  · iintro ⟨Hl, Hr, Ho⟩
    isplitl [Hl Hr]
    · iapply (pointsTo_share (PosShare.mem_left_op_right fullShare)).2
      isplitl [Hl]; · iexact Hl
      iexact Hr
    iexact Ho
  · unfold Pipeline.unscopedRest
    exact bigSep_congr fun b hb => by rw [hrest b (Finset.mem_sdiff.mp hb).2]

end Cert.Kernel.Hand

end
-- ==== Proof.K.Run.lean ====
/-
  The program's run from the launch to the return: three kernel regions among five stretches of host operations.
  The contents of the core's buffers at each boundary are a fold from the launch memory: a host stretch applies its
  operations; a region leaves its output array at what its write-backs make of it and every other buffer as it found
  it. Every weakly fair execution terminates with every buffer of the core at the last stage of that fold. Since no
  stretch and no region writes an argument array, each argument ends as launched; the result buffer ends at the
  fold's value, which the value argument then reads.
-/
import proofs.«163352_j23356032156163_1_alg».proof.Proof.Gen.Kernel.Regions
import proofs.«163352_j23356032156163_1_alg».proof.Proof.K.Reg0
import proofs.«163352_j23356032156163_1_alg».proof.Proof.K.Reg1
import proofs.«163352_j23356032156163_1_alg».proof.Proof.K.Reg2
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- The same read at the TensorCore's references: what region 0 is entered from. -/
abbrev VA0 : (c : Dev nD) → (b : Ref sig .tc) → Buf (Elt F) ((c : Thread nD τ).loc b) := fun c b => W0 m c b
/-- After region 0: its output array at what its write-backs leave, every other buffer as entered. -/
def W1 (c : Dev nD) : Valuation τ sig (Elt F) :=
  Function.update (W0 m c) (Pipeline.arrRef spec0 2) ((dat0 (VA0 m) c).arrAt 2 cfg0.N)
abbrev VA1 : (c : Dev nD) → (b : Ref sig .tc) → Buf (Elt F) ((c : Thread nD τ).loc b) := fun c b => W1 m c b
/-- After the aggregation, the bias and the clipping at zero (three stretches of host operations). -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev VA4 : (c : Dev nD) → (b : Ref sig .tc) → Buf (Elt F) ((c : Thread nD τ).loc b) := fun c b => W4 m c b
/-- After region 1. -/
def W5 (c : Dev nD) : Valuation τ sig (Elt F) :=
  Function.update (W4 m c) (Pipeline.arrRef spec1 2) ((dat1 (VA4 m) c).arrAt 2 cfg1.N)
abbrev VA5 : (c : Dev nD) → (b : Ref sig .tc) → Buf (Elt F) ((c : Thread nD τ).loc b) := fun c b => W5 m c b
/-- After the second aggregation and the latent sample. -/
abbrev W6 : Dev nD → Valuation τ sig (Elt F) := fun c => StableHlo.after hostOps2 (W5 m c)
abbrev VA6 : (c : Dev nD) → (b : Ref sig .tc) → Buf (Elt F) ((c : Thread nD τ).loc b) := fun c b => W6 m c b
/-- After region 2. -/
def W7 (c : Dev nD) : Valuation τ sig (Elt F) :=
  Function.update (W6 m c) (Pipeline.arrRef spec2 2) ((dat2 (VA6 m) c).arrAt 2 cfg2.N)
abbrev VA7 : (c : Dev nD) → (b : Ref sig .tc) → Buf (Elt F) ((c : Thread nD τ).loc b) := fun c b => W7 m c b
/-- After the final reshape: the contents at the return. -/
abbrev W8 : Dev nD → Valuation τ sig (Elt F) := fun c => StableHlo.after hostOps3 (W7 m c)

/-! ## What a region leaves: its output array new, everything else as entered -/

theorem W1_out (c : Dev nD) : W1 m c (Pipeline.arrRef spec0 2) = (dat0 (VA0 m) c).arrAt 2 cfg0.N := by
  unfold W1; exact Function.update_self ..
theorem W1_of (c : Dev nD) (r : Ref sig .tc) (h : r ≠ Pipeline.arrRef spec0 2) : W1 m c r = W0 m c r := by
  unfold W1; exact Function.update_of_ne (StableHlo.devRef_ne_of_ne h) ..
theorem W5_out (c : Dev nD) : W5 m c (Pipeline.arrRef spec1 2) = (dat1 (VA4 m) c).arrAt 2 cfg1.N := by
  unfold W5; exact Function.update_self ..
theorem W5_of (c : Dev nD) (r : Ref sig .tc) (h : r ≠ Pipeline.arrRef spec1 2) : W5 m c r = W4 m c r := by
  unfold W5; exact Function.update_of_ne (StableHlo.devRef_ne_of_ne h) ..
theorem W7_out (c : Dev nD) : W7 m c (Pipeline.arrRef spec2 2) = (dat2 (VA6 m) c).arrAt 2 cfg2.N := by
  unfold W7; exact Function.update_self ..
theorem W7_of (c : Dev nD) (r : Ref sig .tc) (h : r ≠ Pipeline.arrRef spec2 2) : W7 m c r = W6 m c r := by
  unfold W7; exact Function.update_of_ne (StableHlo.devRef_ne_of_ne h) ..

/-- At a region's exit each of its arrays holds what the pipeline leaves: an input array what it held at entry, the
    output array the new contents. -/
theorem hF0 (c : Dev nD) (w : Fin cfg0.W) : (dat0 (VA0 m) c).arrAt w cfg0.N = VA1 m c (Pipeline.arrRef spec0 w) :=
  match w with
  | ⟨0, _⟩ => ((dat0 (VA0 m) c).arrAt_in 0 rfl _).trans ((A_eq0 (VA0 m) c 0).trans (W1_of m c _ (by decide)).symm)
  | ⟨1, _⟩ => ((dat0 (VA0 m) c).arrAt_in 1 rfl _).trans ((A_eq0 (VA0 m) c 1).trans (W1_of m c _ (by decide)).symm)
  | ⟨2, _⟩ => (W1_out m c).symm
theorem hrest0 (c : Dev nD) : ∀ b, b ∉ Finset.univ.image (Pipeline.arrRef spec0) → VA1 m c b = VA0 m c b :=
  fun b hb => W1_of m c b fun e => hb (Finset.mem_image.mpr ⟨2, Finset.mem_univ _, e.symm⟩)
theorem hF1 (c : Dev nD) (w : Fin cfg1.W) : (dat1 (VA4 m) c).arrAt w cfg1.N = VA5 m c (Pipeline.arrRef spec1 w) :=
  match w with
  | ⟨0, _⟩ => ((dat1 (VA4 m) c).arrAt_in 0 rfl _).trans ((A_eq1 (VA4 m) c 0).trans (W5_of m c _ (by decide)).symm)
  | ⟨1, _⟩ => ((dat1 (VA4 m) c).arrAt_in 1 rfl _).trans ((A_eq1 (VA4 m) c 1).trans (W5_of m c _ (by decide)).symm)
  | ⟨2, _⟩ => (W5_out m c).symm
theorem hrest1 (c : Dev nD) : ∀ b, b ∉ Finset.univ.image (Pipeline.arrRef spec1) → VA5 m c b = VA4 m c b :=
  fun b hb => W5_of m c b fun e => hb (Finset.mem_image.mpr ⟨2, Finset.mem_univ _, e.symm⟩)
theorem hF2 (c : Dev nD) (w : Fin cfg2.W) : (dat2 (VA6 m) c).arrAt w cfg2.N = VA7 m c (Pipeline.arrRef spec2 w) :=
  match w with
  | ⟨0, _⟩ => ((dat2 (VA6 m) c).arrAt_in 0 rfl _).trans ((A_eq2 (VA6 m) c 0).trans (W7_of m c _ (by decide)).symm)
  | ⟨1, _⟩ => ((dat2 (VA6 m) c).arrAt_in 1 rfl _).trans ((A_eq2 (VA6 m) c 1).trans (W7_of m c _ (by decide)).symm)
  | ⟨2, _⟩ => (W7_out m c).symm
theorem hrest2 (c : Dev nD) : ∀ b, b ∉ Finset.univ.image (Pipeline.arrRef spec2) → VA7 m c b = VA6 m c b :=
  fun b hb => W7_of m c b fun e => hb (Finset.mem_image.mpr ⟨2, Finset.mem_univ _, e.symm⟩)

/-! ## A buffer nothing writes ends as launched -/

/-- A buffer that no host operation writes and that is no region's output holds at the return what it held at launch. -/
theorem W8_of (c : Dev nD) (r : Ref sig .tc) (h3 : r ∉ hostOps3_W) (h2 : r ∉ hostOps2_W) (h12 : r ∉ hostOps1_2_W) (h11 : r ∉ hostOps1_1_W)
    (h1 : r ∉ hostOps1_W) (o0 : r ≠ Pipeline.arrRef spec0 2) (o1 : r ≠ Pipeline.arrRef spec1 2) (o2 : r ≠ Pipeline.arrRef spec2 2) :
    W8 m c r = m ((c : Thread nD τ).loc r) :=
  (StableHlo.after_of_writes_sub hostOps3 _ hostOps3_writes h3).trans <| (W7_of m c r o2).trans <|
  (StableHlo.after_of_writes_sub hostOps2 _ hostOps2_writes h2).trans <| (W5_of m c r o1).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1).trans <| (W1_of m c r o0).trans rfl

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (VA0 m) c
  | ⟨1, _⟩ => fun c => dat1 (VA4 m) c
  | ⟨2, _⟩ => fun c => dat2 (VA6 m) c
abbrev 𝒱n : Variants := Variants.none
/-- No core owes another anything: no level is assigned. -/
abbrev Ln : GSem nD τ sig → Finset Unit := fun _ => ∅
abbrev lvn : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A host stretch as a segment over all the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W0`, left with them at `W1`. Its arrays are
    split out of the unscoped buffers at entry and put back at the exit contents; the generator register goes into
    the region's invariant and comes back; nothing is owed. -/
def reg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (VA0 m) c).loose
  hwaits := Pipeline.hwaits_of_owed_zero _ _ _ _ Ln lvn 0 fun _ _ => rfl
  pre c := iprop(StableHlo.held (c : Thread nD τ) (Pipeline.ucRefs τ sig) (W0 m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest (Ix := Unit) (Name := ℕ) (U := UR sig nD τ) (Lvl := ℕ) spec0 c (VA0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA0 m c) (VA1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W4`, left with them at `W5`. -/
def reg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (VA4 m) c).loose
  hwaits := Pipeline.hwaits_of_owed_zero _ _ _ _ Ln lvn 1 fun _ _ => rfl
  pre c := iprop(StableHlo.held (c : Thread nD τ) (Pipeline.ucRefs τ sig) (W4 m c) ∗ Rr c)
  post c := iprop(StableHlo.held (c : Thread nD τ) (Pipeline.ucRefs τ sig) (W5 m c) ∗ Rr c)
  X c := iprop(∃ r, prngReg c r)
  Y c := iprop(∃ r, prngReg c r)
  Z c := Pipeline.unscopedRest (Ix := Unit) (Name := ℕ) (U := UR sig nD τ) (Lvl := ℕ) spec1 c (VA4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VA4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VA4 m c) (VA5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W6`, left with them at `W7`. Its two input
    windows read one array, which is split between them at entry and joined again at the exit. -/
def reg2 : Pipeline.RegionSeg (pcfgs (F := F)) adm (pdats m) () defs₀ 𝒱n Ln lvn 2 where
  win := winFacts₀2
  block_pos := block_pos2
  stage_whole := stage_whole2
  K := PEmpty
  osem k := k.elim
  ho := Pipeline.OwnSemFacts.none _
  hbody c := (body_obligation2 (VA6 m) c).loose
  hwaits := Pipeline.hwaits_of_owed_zero _ _ _ _ Ln lvn 2 fun c t => owed2 (VA6 m) c t
  pre c := iprop(StableHlo.held (c : Thread nD τ) (Pipeline.ucRefs τ sig) (W6 m c) ∗ Rr c)
  post c := iprop(StableHlo.held (c : Thread nD τ) (Pipeline.ucRefs τ sig) (W7 m c) ∗ Rr c)
  X c := iprop(∃ r, prngReg c r)
  Y c := iprop(∃ r, prngReg c r)
  Z c := Pipeline.unscopedRest (Ix := Unit) (Name := ℕ) (U := UR sig nD τ) (Lvl := ℕ) spec2 c (VA6 m c)
  hentry c := by
    rw [Pipeline.ownSems0_none]
    have hsplit : (unscopedBufs c (VA6 m c) : sProp 𝕄)
        ⊢ iprop((pdats m 2 c).arrays ((pdats m 2 c).arrAt · 0) ∗ Pipeline.unscopedRest spec2 c (VA6 m c)) := entry2 (VA6 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : (iprop((pdats m 2 c).arrays ((pdats m 2 c).arrAt · cfg2.N) ∗ Pipeline.unscopedRest spec2 c (VA6 m c)) : sProp 𝕄)
        ⊢ (unscopedBufs c (VA7 m c) : sProp 𝕄) := exit2 (VA6 m) c (VA7 m c) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's eight segments in order. -/
abbrev msegs : List (Pipeline.Seg (pcfgs (F := F)) adm (pdats m) () defs₀ 𝒱n Ln lvn) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)),
    .region (reg2 m),
    .host (hseg hostOps3 hostOps3_sub hostOps3_fresh (W7 m)) ]

set_option backward.isDefEq.respectTransparency.types false in
/-- THE RUN: from any memory with zero counters, every weakly fair execution of the program terminates, nothing
    faulting, and every final state has every unscoped buffer of every core at the last stage of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit_dev (pcfgs (F := F)) adm (pdats m) () cellOf_inj emb₁ defs₀ 𝒱n Ln lvn m ρ main (fun _ => msegs m)
    (fun c Q => by
      rewrite [main_chain c, Pipeline.Seg.run_eq_chain,
        show (msegs m).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3 ] from rfl]
      exact .rfl)
    (fun c => by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c))
    (Tₙ := fun c => iprop(StableHlo.held (c : Thread nD τ) (Pipeline.ucRefs τ sig) (W8 m c) ∗ ∃ r, prngReg c r))
    (hch := fun c => ⟨.rfl, .rfl, .rfl, .rfl, .rfl, .rfl, .rfl, .rfl,
      (show (iprop(StableHlo.held (c : Thread nD τ) (Pipeline.ucRefs τ sig) (W8 m c) ∗ Rr c) : sProp 𝕄)
          ⊢ iprop((StableHlo.held (c : Thread nD τ) (Pipeline.ucRefs τ sig) (W8 m c) ∗ ∃ r, prngReg c r)
              ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W8_of m c main_arg0 (by decide) (by decide) (by decide) (by decide) (by decide) (by decide) (by decide) (by decide)),
     (h c _ (mem_uc main_arg1 (by decide))).trans (W8_of m c main_arg1 (by decide) (by decide) (by decide) (by decide) (by decide) (by decide) (by decide) (by decide)),
     (h c _ (mem_uc main_arg2 (by decide))).trans (W8_of m c main_arg2 (by decide) (by decide) (by decide) (by decide) (by decide) (by decide) (by decide) (by decide)),
     (h c _ (mem_uc main_arg3 (by decide))).trans (W8_of m c main_arg3 (by decide) (by decide) (by decide) (by decide) (by decide) (by decide) (by decide) (by decide)),
     (h c _ (mem_uc main_arg4 (by decide))).trans (W8_of m c main_arg4 (by decide) (by decide) (by decide) (by decide) (by decide) (by decide) (by decide) (by decide)),
     (h c _ (mem_uc main_arg5 (by decide))).trans (W8_of m c main_arg5 (by decide) (by decide) (by decide) (by decide) (by decide) (by decide) (by decide) (by decide)),
     (h c _ (mem_uc main_arg6 (by decide))).trans (W8_of m c main_arg6 (by decide) (by decide) (by decide) (by decide) (by decide) (by decide) (by decide) (by decide)),
     (h c _ (mem_uc main_arg7 (by decide))).trans (W8_of m c main_arg7 (by decide) (by decide) (by decide) (by decide) (by decide) (by decide) (by decide) (by decide)),
     (h c _ (mem_uc main_arg8 (by decide))).trans (W8_of m c main_arg8 (by decide) (by decide) (by decide) (by decide) (by decide) (by decide) (by decide) (by decide)),
     (h c _ (mem_uc main_arg9 (by decide))).trans (W8_of m c main_arg9 (by decide) (by decide) (by decide) (by decide) (by decide) (by decide) (by decide) (by decide)),
     (h c _ (mem_uc main_arg10 (by decide))).trans (W8_of m c main_arg10 (by decide) (by decide) (by decide) (by decide) (by decide) (by decide) (by decide) (by decide))⟩)
    (run_all m ρ)

end Cert.Kernel.Hand

end
-- ==== Proof.KI.Reg0.lean ====
/-
  Region 0 of the program's three kernel regions, at a parameter `V` (the contents of the core's buffers when the
  region is entered). This region multiplies the node features `X` (8192 × 512), 2048 rows at a grid point, by the first weight matrix `W1` (512 × 16), held whole.
  The body reads its two input blocks whole, multiplies them on the matrix unit into a zero accumulator, and
  stores the product over the whole output block; so after the body at a grid point the output's staging buffer
  holds the product of the two input blocks at that point, and each input's buffer still holds its block. With
  that as the proof data, the body's triple gives the obligation the launch asks for at every point.
-/
import proofs.«163352_j23356032156163_1_alg».proof.Proof.Gen.KernelIdeal.Launch
import proofs.«163352_j23356032156163_1_alg».proof.Proof.Gen.KernelIdeal.Skeleton
import proofs.«163352_j23356032156163_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds its block at every point, fetched there or not: where it is not fetched
    its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right factor's staging buffer holds the whole right matrix at every point (it is fetched once, at the first). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S2048x512 := Rect.unit (s := S2048x512) ![0, 0] S2048x512.size inb_S2048x512_S2048x512_0_0
abbrev r0_1 : Rect S512x16 := Rect.unit (s := S512x16) ![0, 0] S512x16.size inb_S512x16_S512x16_0_0
abbrev r0_2 : Rect S2048x16 := Rect.unit (s := S2048x16) ![0, 0] S2048x16.size inb_S2048x16_S2048x16_0_0

/-- The output's staging buffer after the body: the product of the two input blocks, stored whole. -/
def out0_2 (x0 : Vec F S2048x512 .f32) (x1 : Vec F S512x16 .f32) : Vec F S2048x16 .f32 :=
  View.canon [⟨r0_2, k0_pay1 (View.ld x0 r0_0) (View.ld x1 r0_1)⟩]

/-- The one store covers the output block. -/
theorem cover0_2 (p0 : Vec F S2048x16 .f32) (y : S2048x16.Idx) :
    ∃ pc ∈ ([⟨r0_2, p0⟩] : List (View.Piece (Elt F) S2048x16 .f32)), y ∈ pc.1.set :=
  View.cover_of_tiled [⟨r0_2, p0⟩] S2048x16.size (by rfl) y

/-! ## The body's triple -/

set_option maxHeartbeats 1000000 in
/-- The body on whole staging buffers, the inputs' at contents `x0`, `x1` and the output's at anything, runs to the
    continuation with the inputs' as they were and the output's at the product `out0_2 x0 x1`. -/
theorem sound_kernel0 (c : Dev nD) (E : Set ℕ) (i : grid0.Coords) (arg1 : Memref sig .tc .vmem S2048x512 .f32) (harg1 : arg1.IsWhole) (arg2 : Memref sig .tc .vmem S512x16 .f32) (harg2 : arg2.IsWhole) (arg3 : Memref sig .tc .vmem S2048x16 .f32) (harg3 : arg3.IsWhole)
    (x0 : Vec F S2048x512 .f32) (x1 : Vec F S512x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data -/

/-- The proof data of this region on core `c`: the arrays as the region finds them; after the body at point `t` each
    input's buffer at its block and the output's at the product of the two blocks; the scoped rest and the generator
    register pass through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the program's three kernel regions, at a parameter `V` (the contents of the core's buffers when the
  region is entered). This region multiplies the hidden layer (8192 × 16), 2048 rows at a grid point, by the two head matrices set side by side `[W2 | W3]` (16 × 14), held whole.
  The body reads its two input blocks whole, multiplies them on the matrix unit into a zero accumulator, and
  stores the product over the whole output block; so after the body at a grid point the output's staging buffer
  holds the product of the two input blocks at that point, and each input's buffer still holds its block. With
  that as the proof data, the body's triple gives the obligation the launch asks for at every point.
-/
import proofs.«163352_j23356032156163_1_alg».proof.Proof.Gen.KernelIdeal.Launch
import proofs.«163352_j23356032156163_1_alg».proof.Proof.Gen.KernelIdeal.Skeleton
import proofs.«163352_j23356032156163_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left factor's staging buffer holds its block at every point, fetched there or not: where it is not fetched
    its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The right factor's staging buffer holds the whole right matrix at every point (it is fetched once, at the first). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev r1_0 : Rect S2048x16 := Rect.unit (s := S2048x16) ![0, 0] S2048x16.size inb_S2048x16_S2048x16_0_0
abbrev r1_1 : Rect S16x14 := Rect.unit (s := S16x14) ![0, 0] S16x14.size inb_S16x14_S16x14_0_0
abbrev r1_2 : Rect S2048x14 := Rect.unit (s := S2048x14) ![0, 0] S2048x14.size inb_S2048x14_S2048x14_0_0

/-- The output's staging buffer after the body: the product of the two input blocks, stored whole. -/
def out1_2 (x0 : Vec F S2048x16 .f32) (x1 : Vec F S16x14 .f32) : Vec F S2048x14 .f32 :=
  View.canon [⟨r1_2, k1_pay1 (View.ld x0 r1_0) (View.ld x1 r1_1)⟩]

/-- The one store covers the output block. -/
theorem cover1_2 (p0 : Vec F S2048x14 .f32) (y : S2048x14.Idx) :
    ∃ pc ∈ ([⟨r1_2, p0⟩] : List (View.Piece (Elt F) S2048x14 .f32)), y ∈ pc.1.set :=
  View.cover_of_tiled [⟨r1_2, p0⟩] S2048x14.size (by rfl) y

/-! ## The body's triple -/

set_option maxHeartbeats 1000000 in
/-- The body on whole staging buffers, the inputs' at contents `x0`, `x1` and the output's at anything, runs to the
    continuation with the inputs' as they were and the output's at the product `out1_2 x0 x1`. -/
theorem sound_kernel1 (c : Dev nD) (E : Set ℕ) (i : grid1.Coords) (arg1 : Memref sig .tc .vmem S2048x16 .f32) (harg1 : arg1.IsWhole) (arg2 : Memref sig .tc .vmem S16x14 .f32) (harg2 : arg2.IsWhole) (arg3 : Memref sig .tc .vmem S2048x14 .f32) (harg3 : arg3.IsWhole)
    (x0 : Vec F S2048x16 .f32) (x1 : Vec F S16x14 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The proof data of this region on core `c`: the arrays as the region finds them; after the body at point `t` each
    input's buffer at its block and the output's at the product of the two blocks; the scoped rest and the generator
    register pass through untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The launch's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/- REGION 2 of the kernel program's @main (the third pallas_call: the product of the latent matrix with its own
   transpose, on an 8 × 8 grid of 1024 × 1024 output blocks), at a PARAMETER `V` — the TensorCore's buffer contents
   when the region is entered. One array, the latent matrix, is read through TWO input windows (window 0 takes the row
   block of the output's row index, window 1 the row block of its column index), so the array's full share is dealt
   between them, a half each, when the region is entered and joined back when it is left.
   Here: each window's block at a point, what the body leaves in the output window's buffer, the body's triple,
   the proof data, the body obligation, and the passage between "every unscoped buffer at `V`" and the region's
   arrays beside the rest. -/
import proofs.«163352_j23356032156163_1_alg».proof.Proof.Gen.KernelIdeal.Launch
import proofs.«163352_j23356032156163_1_alg».proof.Proof.Gen.KernelIdeal.Skeleton
import proofs.«163352_j23356032156163_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (it is fetched only
    where the output's row block changes; in between its block index does not move), for any proof data whose array
    is `V`'s and whose body leaves the block in place; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1, fetched at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole of an input block. -/
abbrev r2_0 : Rect S1024x7 := Rect.unit (s := S1024x7) ![0, 0] S1024x7.size inb_S1024x7_S1024x7_0_0
/-- The whole of the output block. -/
abbrev r2_1 : Rect S1024x1024 := Rect.unit (s := S1024x1024) ![0, 0] S1024x1024.size inb_S1024x1024_S1024x1024_0_0

/-! ## What the body leaves in the output window's buffer -/

/-- Window 2's staging buffer after the body, from the two input blocks: its one store, of the product of the first
    block with the transpose of the second, over the whole buffer. -/
def out2_2 (x0 x1 : Vec F S1024x7 .f32) : Vec F S1024x1024 .f32 :=
  View.canon [⟨r2_1, k2_pay1 (View.ld x0 r2_0) (View.ld x1 r2_0)⟩]

/-- The store covers the buffer. -/
theorem cover2_2 (p0 : Vec F S1024x1024 .f32) (y : S1024x1024.Idx) :
    ∃ pc ∈ ([⟨r2_1, p0⟩] : List (View.Piece (Elt F) S1024x1024 .f32)), y ∈ pc.1.set :=
  View.cover_of_tiled [⟨r2_1, p0⟩] S1024x1024.size (by rfl) y

/-! ## The body's triple -/

set_option maxHeartbeats 1000000 in
/-- The kernel body on whole staging memrefs, the two inputs' at read contents `x0`, `x1` and the output's at
    anything (the body reads it before it overwrites it), runs to the continuation holding the inputs' as they were
    and the output's at `out2_2 x0 x1`. -/
theorem sound_kernel2 (c : Dev nD) (E : Set ℕ) (i : grid2.Coords) (arg0 : Memref sig .tc .vmem S1024x7 .f32) (harg0 : arg0.IsWhole)
    (arg1 : Memref sig .tc .vmem S1024x7 .f32) (harg1 : arg1.IsWhole) (arg2 : Memref sig .tc .vmem S1024x1024 .f32) (harg2 : arg2.IsWhole)
    (x0 x1 : Vec F S1024x7 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__outer_kernel i arg0 harg0 arg1 harg1 arg2 harg2) K := by
  simp only [cc2__outer_kernel_eq_skeleton]; unfold cc2__outer_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the two input blocks; the invariant the
    scoped rest and the generator register, untouched; nothing owed; of the one array behind both input windows,
    window 0 holds the left half of the full share and window 1 the right half. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Nothing is owed at any point. -/
theorem owed2 (c : Dev nD) (t) : (dat2 V c).owed t = 0 := rfl

/-- The shares of the three windows' arrays. -/
theorem share2_0 (c : Dev nD) : (dat2 V c).share 0 = fullShare.left := rfl
theorem share2_1 (c : Dev nD) : (dat2 V c).share 1 = fullShare.right := rfl
theorem share2_2 (c : Dev nD) : (dat2 V c).share 2 = fullShare := rfl

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The region's arrays among the core's unscoped buffers

The three windows stand on two buffers: the latent matrix (windows 0 and 1) and the output (window 2). Entering the
region, the latent matrix's full share is split in its two halves, one per input window; leaving it, the halves —
both still at the entry contents, an input array being never written — are joined back. -/

/-- The two buffers behind the three windows' arrays. -/
theorem arrRefs2 : Finset.univ.image (Pipeline.arrRef spec2) = {main_v41, main_v42} := by decide

/-- The buffers behind the arrays, each whole at the full share at contents `V'`: the latent matrix and the output. -/
theorem arrBufs2_eq (c : Dev nD) (V' : (b : Ref sig .tc) → Buf (Elt F) ((c : Thread nD τ).loc b)) :
    (Pipeline.arrBufs spec2 c V' : sProp 𝕄)
      = iprop((((c : Thread nD τ).loc main_v41) ↦{fullShare} V' main_v41) ∗ (((c : Thread nD τ).loc main_v42) ↦{fullShare} V' main_v42)) := by
  unfold Pipeline.arrBufs
  rw [arrRefs2, bigSep_insert (by decide), bigSep_singleton]
  rfl

/-- The pipeline's arrays at contents `G`, window by window: each a whole buffer, held at the window's share. -/
theorem arrays2_eq (c : Dev nD) (G : (w : Fin cfg2.W) → Buf (Elt F) ((cfg2.win w).arr.view.loc (c : Thread nD τ))) :
    ((dat2 V c).arrays G : sProp 𝕄)
      = iprop((((c : Thread nD τ).loc (Pipeline.arrRef spec2 0)) ↦{fullShare.left} G 0)
          ∗ (((c : Thread nD τ).loc (Pipeline.arrRef spec2 1)) ↦{fullShare.right} G 1)
          ∗ (((c : Thread nD τ).loc (Pipeline.arrRef spec2 2)) ↦{fullShare} G 2)) := by
  unfold Dat.arrays
  -- windows 0 and 1 stand on the same whole array
  rw [bigSep_W2, (arr_whole2 0).set_eq_univ, (arr_whole2 2).set_eq_univ, share2_0, share2_1, share2_2]

/-- A core's unscoped buffers at contents `V'` are the buffers behind the region's arrays and the rest. -/
theorem unscopedBufs_split2 (c : Dev nD) (V' : (b : Ref sig .tc) → Buf (Elt F) ((c : Thread nD τ).loc b)) :
    (unscopedBufs c V' : sProp 𝕄) = iprop((Pipeline.arrBufs spec2 c V' : sProp 𝕄) ∗ Pipeline.unscopedRest spec2 c V') :=
  Pipeline.unscopedBufs_split₀ cfgs 2 winFacts₀2.arr_unscoped c V'

/-- ENTRY: a core's unscoped buffers at contents `V` are the region's arrays at the proof data's entry contents —
    the latent matrix's full share dealt to the two input windows, a half each — and the unscoped rest. -/
theorem entry2 (c : Dev nD) :
    (unscopedBufs c (V c) : sProp 𝕄) ⊢ iprop((dat2 V c).arrays ((dat2 V c).arrAt · 0) ∗ Pipeline.unscopedRest spec2 c (V c)) := by
  rw [unscopedBufs_split2, arrBufs2_eq, arrays2_eq]
  refine sep_mono ?_ .rfl
  iintro ⟨Hz, Ho⟩
  ihave Hs := (pointsTo_share (PosShare.mem_left_op_right fullShare)).1 $$ Hz
  icases Hs with ⟨Hl, Hr⟩
  isplitl [Hl]; · iexact Hl
  isplitl [Hr]; · iexact Hr
  iexact Ho

/-- EXIT: the region's arrays at what the pipeline leaves and the unscoped rest at `V` are the core's unscoped buffers
    at any valuation `V'` that has the arrays at those contents and agrees with `V` off them: the two halves of the
    latent matrix's share, both at the one contents `V'` names, join to the full share. -/
theorem exit2 (c : Dev nD) (V' : (b : Ref sig .tc) → Buf (Elt F) ((c : Thread nD τ).loc b))
    (hF : ∀ w, (dat2 V c).arrAt w cfg2.N = V' (Pipeline.arrRef spec2 w))
    (hrest : ∀ b, b ∉ Finset.univ.image (Pipeline.arrRef spec2) → V' b = V c b) :
    iprop((dat2 V c).arrays ((dat2 V c).arrAt · cfg2.N) ∗ Pipeline.unscopedRest spec2 c (V c)) ⊢ (unscopedBufs c V' : sProp 𝕄) := by
  rw [unscopedBufs_split2, arrBufs2_eq, arrays2_eq, hF 0, hF 1, hF 2]
  refine sep_mono ?_ (Entails.of_eq ?_)
  · iintro ⟨Hl, Hr, Ho⟩
    isplitl [Hl Hr]
    · iapply (pointsTo_share (PosShare.mem_left_op_right fullShare)).2
      isplitl [Hl]; · iexact Hl
      iexact Hr
    iexact Ho
  · unfold Pipeline.unscopedRest
    exact bigSep_congr fun b hb => by rw [hrest b (Finset.mem_sdiff.mp hb).2]

end Cert.KernelIdeal.Hand

end
-- ==== Proof.KI.Run.lean ====
/-
  The program's run from the launch to the return: three kernel regions among five stretches of host operations.
  The contents of the core's buffers at each boundary are a fold from the launch memory: a host stretch applies its
  operations; a region leaves its output array at what its write-backs make of it and every other buffer as it found
  it. Every weakly fair execution terminates with every buffer of the core at the last stage of that fold. Since no
  stretch and no region writes an argument array, each argument ends as launched; the result buffer ends at the
  fold's value, which the value argument then reads.
-/
import proofs.«163352_j23356032156163_1_alg».proof.Proof.Gen.KernelIdeal.Regions
import proofs.«163352_j23356032156163_1_alg».proof.Proof.KI.Reg0
import proofs.«163352_j23356032156163_1_alg».proof.Proof.KI.Reg1
import proofs.«163352_j23356032156163_1_alg».proof.Proof.KI.Reg2
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- The same read at the TensorCore's references: what region 0 is entered from. -/
abbrev VA0 : (c : Dev nD) → (b : Ref sig .tc) → Buf (Elt F) ((c : Thread nD τ).loc b) := fun c b => W0 m c b
/-- After region 0: its output array at what its write-backs leave, every other buffer as entered. -/
def W1 (c : Dev nD) : Valuation τ sig (Elt F) :=
  Function.update (W0 m c) (Pipeline.arrRef spec0 2) ((dat0 (VA0 m) c).arrAt 2 cfg0.N)
abbrev VA1 : (c : Dev nD) → (b : Ref sig .tc) → Buf (Elt F) ((c : Thread nD τ).loc b) := fun c b => W1 m c b
/-- After the aggregation, the bias and the clipping at zero (three stretches of host operations). -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev VA4 : (c : Dev nD) → (b : Ref sig .tc) → Buf (Elt F) ((c : Thread nD τ).loc b) := fun c b => W4 m c b
/-- After region 1. -/
def W5 (c : Dev nD) : Valuation τ sig (Elt F) :=
  Function.update (W4 m c) (Pipeline.arrRef spec1 2) ((dat1 (VA4 m) c).arrAt 2 cfg1.N)
abbrev VA5 : (c : Dev nD) → (b : Ref sig .tc) → Buf (Elt F) ((c : Thread nD τ).loc b) := fun c b => W5 m c b
/-- After the second aggregation and the latent sample. -/
abbrev W6 : Dev nD → Valuation τ sig (Elt F) := fun c => StableHlo.after hostOps2 (W5 m c)
abbrev VA6 : (c : Dev nD) → (b : Ref sig .tc) → Buf (Elt F) ((c : Thread nD τ).loc b) := fun c b => W6 m c b
/-- After region 2. -/
def W7 (c : Dev nD) : Valuation τ sig (Elt F) :=
  Function.update (W6 m c) (Pipeline.arrRef spec2 2) ((dat2 (VA6 m) c).arrAt 2 cfg2.N)
abbrev VA7 : (c : Dev nD) → (b : Ref sig .tc) → Buf (Elt F) ((c : Thread nD τ).loc b) := fun c b => W7 m c b
/-- After the final reshape: the contents at the return. -/
abbrev W8 : Dev nD → Valuation τ sig (Elt F) := fun c => StableHlo.after hostOps3 (W7 m c)

/-! ## What a region leaves: its output array new, everything else as entered -/

theorem W1_out (c : Dev nD) : W1 m c (Pipeline.arrRef spec0 2) = (dat0 (VA0 m) c).arrAt 2 cfg0.N := by
  unfold W1; exact Function.update_self ..
theorem W1_of (c : Dev nD) (r : Ref sig .tc) (h : r ≠ Pipeline.arrRef spec0 2) : W1 m c r = W0 m c r := by
  unfold W1; exact Function.update_of_ne (StableHlo.devRef_ne_of_ne h) ..
theorem W5_out (c : Dev nD) : W5 m c (Pipeline.arrRef spec1 2) = (dat1 (VA4 m) c).arrAt 2 cfg1.N := by
  unfold W5; exact Function.update_self ..
theorem W5_of (c : Dev nD) (r : Ref sig .tc) (h : r ≠ Pipeline.arrRef spec1 2) : W5 m c r = W4 m c r := by
  unfold W5; exact Function.update_of_ne (StableHlo.devRef_ne_of_ne h) ..
theorem W7_out (c : Dev nD) : W7 m c (Pipeline.arrRef spec2 2) = (dat2 (VA6 m) c).arrAt 2 cfg2.N := by
  unfold W7; exact Function.update_self ..
theorem W7_of (c : Dev nD) (r : Ref sig .tc) (h : r ≠ Pipeline.arrRef spec2 2) : W7 m c r = W6 m c r := by
  unfold W7; exact Function.update_of_ne (StableHlo.devRef_ne_of_ne h) ..

/-- At a region's exit each of its arrays holds what the pipeline leaves: an input array what it held at entry, the
    output array the new contents. -/
theorem hF0 (c : Dev nD) (w : Fin cfg0.W) : (dat0 (VA0 m) c).arrAt w cfg0.N = VA1 m c (Pipeline.arrRef spec0 w) :=
  match w with
  | ⟨0, _⟩ => ((dat0 (VA0 m) c).arrAt_in 0 rfl _).trans ((A_eq0 (VA0 m) c 0).trans (W1_of m c _ (by decide)).symm)
  | ⟨1, _⟩ => ((dat0 (VA0 m) c).arrAt_in 1 rfl _).trans ((A_eq0 (VA0 m) c 1).trans (W1_of m c _ (by decide)).symm)
  | ⟨2, _⟩ => (W1_out m c).symm
theorem hrest0 (c : Dev nD) : ∀ b, b ∉ Finset.univ.image (Pipeline.arrRef spec0) → VA1 m c b = VA0 m c b :=
  fun b hb => W1_of m c b fun e => hb (Finset.mem_image.mpr ⟨2, Finset.mem_univ _, e.symm⟩)
theorem hF1 (c : Dev nD) (w : Fin cfg1.W) : (dat1 (VA4 m) c).arrAt w cfg1.N = VA5 m c (Pipeline.arrRef spec1 w) :=
  match w with
  | ⟨0, _⟩ => ((dat1 (VA4 m) c).arrAt_in 0 rfl _).trans ((A_eq1 (VA4 m) c 0).trans (W5_of m c _ (by decide)).symm)
  | ⟨1, _⟩ => ((dat1 (VA4 m) c).arrAt_in 1 rfl _).trans ((A_eq1 (VA4 m) c 1).trans (W5_of m c _ (by decide)).symm)
  | ⟨2, _⟩ => (W5_out m c).symm
theorem hrest1 (c : Dev nD) : ∀ b, b ∉ Finset.univ.image (Pipeline.arrRef spec1) → VA5 m c b = VA4 m c b :=
  fun b hb => W5_of m c b fun e => hb (Finset.mem_image.mpr ⟨2, Finset.mem_univ _, e.symm⟩)
theorem hF2 (c : Dev nD) (w : Fin cfg2.W) : (dat2 (VA6 m) c).arrAt w cfg2.N = VA7 m c (Pipeline.arrRef spec2 w) :=
  match w with
  | ⟨0, _⟩ => ((dat2 (VA6 m) c).arrAt_in 0 rfl _).trans ((A_eq2 (VA6 m) c 0).trans (W7_of m c _ (by decide)).symm)
  | ⟨1, _⟩ => ((dat2 (VA6 m) c).arrAt_in 1 rfl _).trans ((A_eq2 (VA6 m) c 1).trans (W7_of m c _ (by decide)).symm)
  | ⟨2, _⟩ => (W7_out m c).symm
theorem hrest2 (c : Dev nD) : ∀ b, b ∉ Finset.univ.image (Pipeline.arrRef spec2) → VA7 m c b = VA6 m c b :=
  fun b hb => W7_of m c b fun e => hb (Finset.mem_image.mpr ⟨2, Finset.mem_univ _, e.symm⟩)

/-! ## A buffer nothing writes ends as launched -/

/-- A buffer that no host operation writes and that is no region's output holds at the return what it held at launch. -/
theorem W8_of (c : Dev nD) (r : Ref sig .tc) (h3 : r ∉ hostOps3_W) (h2 : r ∉ hostOps2_W) (h12 : r ∉ hostOps1_2_W) (h11 : r ∉ hostOps1_1_W)
    (h1 : r ∉ hostOps1_W) (o0 : r ≠ Pipeline.arrRef spec0 2) (o1 : r ≠ Pipeline.arrRef spec1 2) (o2 : r ≠ Pipeline.arrRef spec2 2) :
    W8 m c r = m ((c : Thread nD τ).loc r) :=
  (StableHlo.after_of_writes_sub hostOps3 _ hostOps3_writes h3).trans <| (W7_of m c r o2).trans <|
  (StableHlo.after_of_writes_sub hostOps2 _ hostOps2_writes h2).trans <| (W5_of m c r o1).trans <|
  (StableHlo.after_of_writes_sub hostOps1_2 _ hostOps1_2_writes h12).trans <|
  (StableHlo.after_of_writes_sub hostOps1_1 _ hostOps1_1_writes h11).trans <|
  (StableHlo.after_of_writes_sub hostOps1 _ hostOps1_writes h1).trans <| (W1_of m c r o0).trans rfl

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (VA0 m) c
  | ⟨1, _⟩ => fun c => dat1 (VA4 m) c
  | ⟨2, _⟩ => fun c => dat2 (VA6 m) c
abbrev 𝒱n : Variants := Variants.none
/-- No core owes another anything: no level is assigned. -/
abbrev Ln : GSem nD τ sig → Finset Unit := fun _ => ∅
abbrev lvn : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
/-- A host stretch as a segment over all the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W0`, left with them at `W1`. Its arrays are
    split out of the unscoped buffers at entry and put back at the exit contents; the generator register goes into
    the region's invariant and comes back; nothing is owed. -/
def reg0 : Pipeline.RegionSeg (pcfgs (F := F)) adm (pdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (VA0 m) c).loose
  hwaits := Pipeline.hwaits_of_owed_zero _ _ _ _ Ln lvn 0 fun _ _ => rfl
  pre c := iprop(StableHlo.held (c : Thread nD τ) (Pipeline.ucRefs τ sig) (W0 m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest (Ix := Unit) (Name := ℕ) (U := UR sig nD τ) (Lvl := ℕ) spec0 c (VA0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA0 m c) (VA1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W4`, left with them at `W5`. -/
def reg1 : Pipeline.RegionSeg (pcfgs (F := F)) adm (pdats m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (VA4 m) c).loose
  hwaits := Pipeline.hwaits_of_owed_zero _ _ _ _ Ln lvn 1 fun _ _ => rfl
  pre c := iprop(StableHlo.held (c : Thread nD τ) (Pipeline.ucRefs τ sig) (W4 m c) ∗ Rr c)
  post c := iprop(StableHlo.held (c : Thread nD τ) (Pipeline.ucRefs τ sig) (W5 m c) ∗ Rr c)
  X c := iprop(∃ r, prngReg c r)
  Y c := iprop(∃ r, prngReg c r)
  Z c := Pipeline.unscopedRest (Ix := Unit) (Name := ℕ) (U := UR sig nD τ) (Lvl := ℕ) spec1 c (VA4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VA4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VA4 m c) (VA5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W6`, left with them at `W7`. Its two input
    windows read one array, which is split between them at entry and joined again at the exit. -/
def reg2 : Pipeline.RegionSeg (pcfgs (F := F)) adm (pdats m) () defs₀ 𝒱n Ln lvn 2 where
  win := winFacts₀2
  block_pos := block_pos2
  stage_whole := stage_whole2
  K := PEmpty
  osem k := k.elim
  ho := Pipeline.OwnSemFacts.none _
  hbody c := (body_obligation2 (VA6 m) c).loose
  hwaits := Pipeline.hwaits_of_owed_zero _ _ _ _ Ln lvn 2 fun c t => owed2 (VA6 m) c t
  pre c := iprop(StableHlo.held (c : Thread nD τ) (Pipeline.ucRefs τ sig) (W6 m c) ∗ Rr c)
  post c := iprop(StableHlo.held (c : Thread nD τ) (Pipeline.ucRefs τ sig) (W7 m c) ∗ Rr c)
  X c := iprop(∃ r, prngReg c r)
  Y c := iprop(∃ r, prngReg c r)
  Z c := Pipeline.unscopedRest (Ix := Unit) (Name := ℕ) (U := UR sig nD τ) (Lvl := ℕ) spec2 c (VA6 m c)
  hentry c := by
    rw [Pipeline.ownSems0_none]
    have hsplit : (unscopedBufs c (VA6 m c) : sProp 𝕄)
        ⊢ iprop((pdats m 2 c).arrays ((pdats m 2 c).arrAt · 0) ∗ Pipeline.unscopedRest spec2 c (VA6 m c)) := entry2 (VA6 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : (iprop((pdats m 2 c).arrays ((pdats m 2 c).arrAt · cfg2.N) ∗ Pipeline.unscopedRest spec2 c (VA6 m c)) : sProp 𝕄)
        ⊢ (unscopedBufs c (VA7 m c) : sProp 𝕄) := exit2 (VA6 m) c (VA7 m c) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's eight segments in order. -/
abbrev msegs : List (Pipeline.Seg (pcfgs (F := F)) adm (pdats m) () defs₀ 𝒱n Ln lvn) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m),
    .host (hseg hostOps2 hostOps2_sub hostOps2_fresh (W5 m)),
    .region (reg2 m),
    .host (hseg hostOps3 hostOps3_sub hostOps3_fresh (W7 m)) ]

set_option backward.isDefEq.respectTransparency.types false in
/-- THE RUN: from any memory with zero counters, every weakly fair execution of the program terminates, nothing
    faulting, and every final state has every unscoped buffer of every core at the last stage of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit_dev (pcfgs (F := F)) adm (pdats m) () cellOf_inj emb₁ defs₀ 𝒱n Ln lvn m ρ main (fun _ => msegs m)
    (fun c Q => by
      rewrite [main_chain c, Pipeline.Seg.run_eq_chain,
        show (msegs m).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3 ] from rfl]
      exact .rfl)
    (fun c => by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c))
    (Tₙ := fun c => iprop(StableHlo.held (c : Thread nD τ) (Pipeline.ucRefs τ sig) (W8 m c) ∗ ∃ r, prngReg c r))
    (hch := fun c => ⟨.rfl, .rfl, .rfl, .rfl, .rfl, .rfl, .rfl, .rfl,
      (show (iprop(StableHlo.held (c : Thread nD τ) (Pipeline.ucRefs τ sig) (W8 m c) ∗ Rr c) : sProp 𝕄)
          ⊢ iprop((StableHlo.held (c : Thread nD τ) (Pipeline.ucRefs τ sig) (W8 m c) ∗ ∃ r, prngReg c r)
              ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (W8_of m c main_arg0 (by decide) (by decide) (by decide) (by decide) (by decide) (by decide) (by decide) (by decide)),
     (h c _ (mem_uc main_arg1 (by decide))).trans (W8_of m c main_arg1 (by decide) (by decide) (by decide) (by decide) (by decide) (by decide) (by decide) (by decide)),
     (h c _ (mem_uc main_arg2 (by decide))).trans (W8_of m c main_arg2 (by decide) (by decide) (by decide) (by decide) (by decide) (by decide) (by decide) (by decide)),
     (h c _ (mem_uc main_arg3 (by decide))).trans (W8_of m c main_arg3 (by decide) (by decide) (by decide) (by decide) (by decide) (by decide) (by decide) (by decide)),
     (h c _ (mem_uc main_arg4 (by decide))).trans (W8_of m c main_arg4 (by decide) (by decide) (by decide) (by decide) (by decide) (by decide) (by decide) (by decide)),
     (h c _ (mem_uc main_arg5 (by decide))).trans (W8_of m c main_arg5 (by decide) (by decide) (by decide) (by decide) (by decide) (by decide) (by decide) (by decide)),
     (h c _ (mem_uc main_arg6 (by decide))).trans (W8_of m c main_arg6 (by decide) (by decide) (by decide) (by decide) (by decide) (by decide) (by decide) (by decide)),
     (h c _ (mem_uc main_arg7 (by decide))).trans (W8_of m c main_arg7 (by decide) (by decide) (by decide) (by decide) (by decide) (by decide) (by decide) (by decide)),
     (h c _ (mem_uc main_arg8 (by decide))).trans (W8_of m c main_arg8 (by decide) (by decide) (by decide) (by decide) (by decide) (by decide) (by decide) (by decide)),
     (h c _ (mem_uc main_arg9 (by decide))).trans (W8_of m c main_arg9 (by decide) (by decide) (by decide) (by decide) (by decide) (by decide) (by decide) (by decide)),
     (h c _ (mem_uc main_arg10 (by decide))).trans (W8_of m c main_arg10 (by decide) (by decide) (by decide) (by decide) (by decide) (by decide) (by decide) (by decide))⟩)
    (run_all m ρ)

end Cert.KernelIdeal.Hand

end
-- ==== Proof.KI.Stretch.lean ====
/-
  The host operations between the kernel regions, each stretch read as one term of the buffers it starts from.
-/
import proofs.«163352_j23356032156163_1_alg».proof.Proof.Gen.KernelIdeal.Regions
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe Idealize.ShloMosaic.StableHlo Idealize.SL.Sem

/-! The index and weight columns, as the host operations build them from the argument arrays. -/

/-- The destination words of the edges, as a column. -/
def ridxOf (a1 : S524288.Idx → BitVec 32) : S524288x1.Idx → BitVec 32 :=
  broadcastInDim S524288x1 ![0] bcast_S524288_S524288x1_0 a1

/-- The source words of the edges, a negative word moved up by the number of nodes, as a column. -/
def cidxOf (a2 : S524288.Idx → BitVec 32) : S524288x1.Idx → BitVec 32 :=
  broadcastInDim S524288x1 ![0] bcast_S524288_S524288x1_0
    (select (cmpi .slt a2 (broadcastInDim S524288 ![] bcast_S_S524288 (constantI S_ 32 0#32)))
      (addi a2 (broadcastInDim S524288 ![] bcast_S_S524288 (constantI S_ 32 8192#32)))
      a2)

/-- The edge weights as a column. -/
def wcolOf (a3 : S524288.Idx → EReal) : S524288x1.Idx → EReal :=
  broadcastInDim S524288x1 ![0] bcast_S524288_S524288x1_0 a3

variable (V : Valuation τ sig (Elt Ideal))

abbrev ridxK : S524288x1.Idx → BitVec 32 := ridxOf (V (Proc.devRef .tc main_arg1) : S524288.Idx → BitVec 32)
abbrev cidxK : S524288x1.Idx → BitVec 32 := cidxOf (V (Proc.devRef .tc main_arg2) : S524288.Idx → BitVec 32)
abbrev wcolK : S524288x1.Idx → EReal := wcolOf (V (Proc.devRef .tc main_arg3) : S524288.Idx → EReal)

/-- The first stretch leaves the weights' column in its buffer. -/
theorem stretch1_v1 : (StableHlo.after (hostOps1 (F := Ideal)) V (Proc.devRef .tc main_v1) : S524288x1.Idx → EReal) = wcolK V := by
  first | (after_results; rfl) | after_results

set_option maxHeartbeats 4000000 in
/-- The first stretch: the aggregation of the first product, plus the first bias. -/
theorem stretch1_v16 : (StableHlo.after (hostOps1 (F := Ideal)) V (Proc.devRef .tc main_v16) : FVec Ideal S8192x16 .f32)
    = addf (F := Ideal) (Host.scatterAdd (F := Ideal) scatter_S8192x16_S524288x1_S524288x16_1_0_0_1
          (broadcastInDim S8192x16 ![] bcast_S_S8192x16 (constant (F := Ideal) S_ .f32 0x00000000#32)) (ridxK V)
          (mulf (F := Ideal) (broadcastInDim S524288x16 ![0, 1] bcast_S524288x1_S524288x16_0_1 (wcolK V))
            (Host.gather gather_S8192x16_S524288x1_S524288x16_1_0_n_n_0_1_116 (V (Proc.devRef .tc main_v0) : FVec Ideal S8192x16 .f32) (cidxK V))))
        (broadcastInDim S8192x16 ![0, 1] bcast_S1x16_S8192x16_0_1 (broadcastInDim S1x16 ![1] bcast_S16_S1x16_1 (V (Proc.devRef .tc main_arg6) : FVec Ideal S16 .f32))) := by
  after_results_simp <;> rfl

/-- The clipping at zero. -/
theorem stretch1_1_v17 : (StableHlo.after (hostOps1_1 (F := Ideal)) V (Proc.devRef .tc main_v17) : FVec Ideal S8192x16 .f32)
    = maximumf (F := Ideal) (V (Proc.devRef .tc main_v16) : FVec Ideal S8192x16 .f32)
        (broadcastInDim S8192x16 ![] bcast_S_S8192x16 (constant (F := Ideal) S_ .f32 0x00000000#32)) := by
  first | (after_results; rfl) | after_results

/-- The two head matrices set side by side. -/
theorem stretch1_2_v18 : (StableHlo.after (hostOps1_2 (F := Ideal)) V (Proc.devRef .tc main_v18) : FVec Ideal S16x14 .f32)
    = concatenate S16x14 1 [⟨S16x7, (V (Proc.devRef .tc main_arg7) : FVec Ideal S16x7 .f32)⟩, ⟨S16x7, (V (Proc.devRef .tc main_arg9) : FVec Ideal S16x7 .f32)⟩] concatenates_S16x7_S16x7_S16x14_d1 := by
  first | (after_results; rfl) | after_results

/-- The 14-column aggregation of the second product, as the second stretch computes it. -/
def agg14K : FVec Ideal S8192x14 .f32 :=
  Host.scatterAdd (F := Ideal) scatter_S8192x14_S524288x1_S524288x14_1_0_0_1
    (broadcastInDim S8192x14 ![] bcast_S_S8192x14 (constant (F := Ideal) S_ .f32 0x00000000#32)) (ridxK V)
    (mulf (F := Ideal) (broadcastInDim S524288x14 ![0, 1] bcast_S524288x1_S524288x14_0_1 (V (Proc.devRef .tc main_v1) : FVec Ideal S524288x1 .f32))
      (Host.gather gather_S8192x14_S524288x1_S524288x14_1_0_n_n_0_1_114 (V (Proc.devRef .tc main_v19) : FVec Ideal S8192x14 .f32) (cidxK V)))

set_option maxHeartbeats 8000000 in
/-- The second stretch: columns 0..6 of the aggregation plus the mean's bias, plus columns 7..13 plus the scale's bias,
    times the noise. -/
theorem stretch2_v41 : (StableHlo.after (hostOps2 (F := Ideal)) V (Proc.devRef .tc main_v41) : FVec Ideal S8192x7 .f32)
    = addf (F := Ideal)
        (addf (F := Ideal) (extractStridedSlice S8192x7 ![0, 0] (agg14K V) slices_S8192x14_S8192x7_0_0)
          (broadcastInDim S8192x7 ![0, 1] bcast_S1x7_S8192x7_0_1 (broadcastInDim S1x7 ![1] bcast_S7_S1x7_1 (V (Proc.devRef .tc main_arg8) : FVec Ideal S7 .f32))))
        (mulf (F := Ideal)
          (addf (F := Ideal) (extractStridedSlice S8192x7 ![0, 7] (agg14K V) slices_S8192x14_S8192x7_0_7)
            (broadcastInDim S8192x7 ![0, 1] bcast_S1x7_S8192x7_0_1 (broadcastInDim S1x7 ![1] bcast_S7_S1x7_1 (V (Proc.devRef .tc main_arg10) : FVec Ideal S7 .f32))))
          (V (Proc.devRef .tc main_arg4) : FVec Ideal S8192x7 .f32)) := by
  unfold agg14K
  after_results_simp <;> rfl

/-- The final reshape. -/
theorem stretch3_v43 : (StableHlo.after (hostOps3 (F := Ideal)) V (Proc.devRef .tc main_v43) : FVec Ideal S67108864 .f32)
    = shapeCast S67108864 (V (Proc.devRef .tc main_v42) : FVec Ideal S8192x8192 .f32) shapeCasts_S8192x8192_S67108864 := by
  first | (after_results; rfl) | after_results

end Cert.KernelIdeal.Hand

end
-- ==== Proof.Spec.lean ====
/-
  The common vocabulary of this certificate's value argument, on the extended reals and index by index: a plain
  matrix product, a product with a transposed right factor, rows gathered by a list of start words, and rows
  scattered and added by a list of start words. The kernel's three matrix products (computed block by block) and
  its one 14-column aggregation, and the reference's whole products and its two 7-column aggregations, are all
  read as these functions; in this form an aggregation acts column by column, so taking columns 0..6 or 7..13
  of the 14-column aggregation is the 7-column aggregation of those columns.
-/
import Idealize.ShloMosaic.PureOps.Ideal
import Idealize.ShloMosaic.Lib.ValueIdx

noncomputable section

namespace Cert.Spec

open Idealize.ShloMosaic Idealize.ShloMosaic.ValueIdx

/-- The product of an `N × K` and a `K × M` matrix at an index: the sum over `k` of `a(p,k) · b(k,q)`. -/
def mm {N K M : ℕ} (a : (⟨2, ![N, K]⟩ : Shape).Idx → EReal) (b : (⟨2, ![K, M]⟩ : Shape).Idx → EReal) :
    (⟨2, ![N, M]⟩ : Shape).Idx → EReal :=
  fun i => ∑ k : Fin K, a (ix2 (i 0) k) * b (ix2 k (i 1))

/-- `a · bᵀ` for an `N × K` and an `M × K` matrix at an index: the sum over `k` of `a(p,k) · b(q,k)`. -/
def mmT {N K M : ℕ} (a : (⟨2, ![N, K]⟩ : Shape).Idx → EReal) (b : (⟨2, ![M, K]⟩ : Shape).Idx → EReal) :
    (⟨2, ![N, M]⟩ : Shape).Idx → EReal :=
  fun i => ∑ k : Fin K, a (ix2 (i 0) k) * b (ix2 (i 1) k)

/-- The row a gather's start word names: the word read signed and clamped into `[0, N − 1]`. -/
def srcRow (N : ℕ) (hN : 0 < N) {M : ℕ} (cidx : (⟨2, ![M, 1]⟩ : Shape).Idx → BitVec 32) (e : Fin M) : Fin N :=
  ⟨min (cidx (ix2 e 0)).toInt.toNat (N - 1), by omega⟩

/-- Rows gathered: row `e` of the result is row `srcRow e` of `x`. -/
def gatherRows {N C M : ℕ} (hN : 0 < N) (x : (⟨2, ![N, C]⟩ : Shape).Idx → EReal)
    (cidx : (⟨2, ![M, 1]⟩ : Shape).Idx → BitVec 32) : (⟨2, ![M, C]⟩ : Shape).Idx → EReal :=
  fun i => x (ix2 (srcRow N hN cidx (i 0)) (i 1))

/-- Rows scattered and added: entry `(n, j)` is `x(n, j)` plus the sum of `upd(e, j)` over the rows `e` whose start
    word, read signed, is `n` (a row whose start word is outside `[0, N − 1]` lands nowhere). -/
def scatterAddRows {N C M : ℕ} (x : (⟨2, ![N, C]⟩ : Shape).Idx → EReal)
    (ridx : (⟨2, ![M, 1]⟩ : Shape).Idx → BitVec 32) (upd : (⟨2, ![M, C]⟩ : Shape).Idx → EReal) :
    (⟨2, ![N, C]⟩ : Shape).Idx → EReal :=
  fun i => x i + ∑ e ∈ Finset.univ.filter (fun e : Fin M => (ridx (ix2 e 0)).toInt = ((i 0).val : ℤ)), upd (ix2 e (i 1))

/-! ## The whole computation -/

section Whole

/-- The graph aggregation of an `8192 × C` matrix `H`: row `n` of the result is the sum, over the edges `e` whose
    destination word is `n`, of the edge weight times row `srcRow e` of `H` (start from zero). It acts on each column by
    itself. -/
def agg {C : ℕ} (w : (⟨1, ![524288]⟩ : Shape).Idx → EReal)
    (ridx cidx : (⟨2, ![524288, 1]⟩ : Shape).Idx → BitVec 32)
    (H : (⟨2, ![8192, C]⟩ : Shape).Idx → EReal) : (⟨2, ![8192, C]⟩ : Shape).Idx → EReal :=
  scatterAddRows (fun _ => 0) ridx
    (fun i : (⟨2, ![524288, C]⟩ : Shape).Idx => w (ix1 (i 0)) * gatherRows (N := 8192) (by decide) H cidx i)

variable (X : (⟨2, ![8192, 512]⟩ : Shape).Idx → EReal) (w : (⟨1, ![524288]⟩ : Shape).Idx → EReal)
  (ridx cidx : (⟨2, ![524288, 1]⟩ : Shape).Idx → BitVec 32)
  (eps : (⟨2, ![8192, 7]⟩ : Shape).Idx → EReal) (W1 : (⟨2, ![512, 16]⟩ : Shape).Idx → EReal)
  (b1 : (⟨1, ![16]⟩ : Shape).Idx → EReal) (W2 : (⟨2, ![16, 7]⟩ : Shape).Idx → EReal) (b2 : (⟨1, ![7]⟩ : Shape).Idx → EReal)
  (W3 : (⟨2, ![16, 7]⟩ : Shape).Idx → EReal) (b3 : (⟨1, ![7]⟩ : Shape).Idx → EReal)

/-- The hidden layer: the aggregation of `X · W1`, plus the bias, clipped below at zero. -/
def hidden : (⟨2, ![8192, 16]⟩ : Shape).Idx → EReal :=
  fun i => max (agg w ridx cidx (mm X W1) i + b1 (ix1 (i 1))) 0

/-- The latent sample: `(agg (h · W2) + b2) + (agg (h · W3) + b3) · eps`. -/
def latent : (⟨2, ![8192, 7]⟩ : Shape).Idx → EReal :=
  fun i => (agg w ridx cidx (mm (hidden X w ridx cidx W1 b1) W2) i + b2 (ix1 (i 1)))
    + (agg w ridx cidx (mm (hidden X w ridx cidx W1 b1) W3) i + b3 (ix1 (i 1))) * eps i

/-- The result, flat: entry `8192 · p + q` is the inner product of rows `p` and `q` of the latent sample. -/
def out : (⟨1, ![67108864]⟩ : Shape).Idx → EReal :=
  fun i => mmT (latent X w ridx cidx eps W1 b1 W2 b2 W3 b3) (latent X w ridx cidx eps W1 b1 W2 b2 W3 b3)
    (ix2 (⟨(i 0).val / 8192, by have h : (i 0).val < 67108864 := (i 0).isLt; omega⟩ : Fin 8192) (⟨(i 0).val % 8192, Nat.mod_lt _ (by decide)⟩ : Fin 8192))

end Whole

end Cert.Spec

end
-- ==== Proof.KI.Val0.lean ====
/- REGION 0's value: the array the pallas_call leaves is the plain product of its two input arrays as the region finds
   them — entry (r, s) the sum over k of a(r, k) · b(k, s). Point t of the 4-point grid writes rows 2048·t … 2048·t + 2047 of the product of the node features (8192 × 512) with the first weight matrix (512 × 16), from that row block of the features and the whole weight matrix; the 4 blocks tile the array. -/
import proofs.«163352_j23356032156163_1_alg».proof.Proof.KI.Reg0
import proofs.«163352_j23356032156163_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The body's product at an index -/

/-- The product's dimension numbers: the left operand contracted on its columns, the right on its rows. -/
local notation "D0" => dot_S2048x512_S512x16_S2048x16_1_0_0_1_n_n

theorem lhs0_0 (i : S2048x16.Idx) (q : DotDims.contr D0 |>.Idx) : (DotDims.lhsIdx D0 i q 0).val = (i 0).val := by
  unfold DotDims.lhsIdx
  rw [dif_neg (show ¬(0 : Fin S2048x512.rank) ∈ DotDims.lhsBatch D0 by decide), dif_pos (show (0 : Fin S2048x512.rank) ∈ DotDims.lhsNonContracting D0 by decide)]
  rfl
theorem lhs0_1 (i : S2048x16.Idx) (q : DotDims.contr D0 |>.Idx) : (DotDims.lhsIdx D0 i q 1).val = (q ⟨0, by decide⟩).val :=
  DotDims.lhsIdx_val_of_single D0 rfl i q
theorem rhs0_0 (i : S2048x16.Idx) (q : DotDims.contr D0 |>.Idx) : (DotDims.rhsIdx D0 i q 0).val = (q ⟨0, by decide⟩).val :=
  DotDims.rhsIdx_val_of_single D0 rfl i q
theorem rhs0_1 (i : S2048x16.Idx) (q : DotDims.contr D0 |>.Idx) : (DotDims.rhsIdx D0 i q 1).val = (i 1).val := by
  unfold DotDims.rhsIdx
  rw [dif_neg (show ¬(1 : Fin S512x16.rank) ∈ DotDims.rhsBatch D0 by decide), dif_pos (show (1 : Fin S512x16.rank) ∈ DotDims.rhsNonContracting D0 by decide)]
  rfl

/-- The body's payload at entry (p, q) of the output block: the inner product of row p of the first input block with
    column q of the second (the narrowing to bf16 is the identity on the ideal values, the accumulator is zero). -/
theorem k0_pay1_apply (x0 : Vec Ideal S2048x512 .f32) (x1 : Vec Ideal S512x16 .f32) (p : Fin 2048) (q : Fin 16) :
    k0_pay1 (F := Ideal) x0 x1 (ix2 p q) = ∑ k : Fin 512, x0 (ix2 p k) * x1 (ix2 k q) := by
  unfold k0_pay1
  refine (Ideal.matmul_constant_zero_apply D0 none _ _ (ix2 p q)).trans ?_
  rw [← Equiv.sum_comp (contrEquiv1 D0 512 rfl rfl).symm]
  refine Finset.sum_congr rfl fun k _ => ?_
  have hk := contrEquiv1_symm_val D0 512 rfl rfl k
  have el : DotDims.lhsIdx D0 (ix2 p q) ((contrEquiv1 D0 512 rfl rfl).symm k) = ix2 p k := funext fun a => Fin.ext (by
    match a with
    | ⟨0, _⟩ => exact lhs0_0 _ _
    | ⟨1, _⟩ => exact (lhs0_1 _ _).trans hk)
  have er : DotDims.rhsIdx D0 (ix2 p q) ((contrEquiv1 D0 512 rfl rfl).symm k) = ix2 k q := funext fun a => Fin.ext (by
    match a with
    | ⟨0, _⟩ => exact (rhs0_0 _ _).trans hk
    | ⟨1, _⟩ => exact rhs0_1 _ _)
  show x0 (DotDims.lhsIdx D0 (ix2 p q) ((contrEquiv1 D0 512 rfl rfl).symm k)) * x1 (DotDims.rhsIdx D0 (ix2 p q) ((contrEquiv1 D0 512 rfl rfl).symm k)) = _
  rw [el, er]

/-! ## From the blocks to the array -/

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: the left window's row block is the output's; the left window does
    not move along its columns, the right window does not move at all, the output does not move along its columns;
    the output's block rows are below 4. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every block of the output is some point's. -/
theorem idx_onto0 : ∀ (q0 : Fin 4), ∃ t : Fin cfg0.N, win0_2.index t = ![q0.val, 0] :=
  (by decide +kernel : ∀ (q0 : Fin 4), ∃ t : Fin grid0.N, win0_2.index t = ![q0.val, 0])

/-- The left and the right factor as the region finds them, as functions of their indices. -/
abbrev XL0 (c : Dev nD) : S8192x512.Idx → EReal := V c main_arg0
abbrev XR0 (c : Dev nD) : S512x16.Idx → EReal := V c main_arg5

/-- Their product, as the array the region leaves. -/
abbrev G0 (a : S8192x512.Idx → EReal) (b : S512x16.Idx → EReal) : S8192x16.Idx → EReal := Cert.Spec.mm (N := 8192) (K := 512) (M := 16) a b

/-- WHAT POINT `t` WRITES BACK is block `t` of the product of the two arrays as the region finds them. -/
theorem flushed0_eq (c : Dev nD) (t : Fin cfg0.N) :
    (dat0 V c).flushed 2 t = ((cfg0.win 2).blk t).view.read (Elt Ideal) (G0 (XL0 V c) (XR0 V c)) := by
  show (cfg0.win 2).cut (grid0.coords t) ((dat0 V c).after 2 t) = _
  rw [after0_2]
  unfold out0_2
  rw [View.canon_unit_zero hz0]
  simp only [View.ld_unit_zero (S := S2048x512) hz0, View.ld_unit_zero (S := S512x16) hz0]
  obtain ⟨e0, e1, e2, e3, e4, e5⟩ := idx_facts0 t
  funext j
  obtain ⟨p, q, rfl⟩ : ∃ (p : Fin 2048) (q : Fin 16), j = ix2 p q := ⟨j 0, j 1, eq_ix2 j⟩
  refine (k0_pay1_apply (iblk0 V c 0 t) (iblk0 V c 1 t) p q).trans ?_
  show _ = ∑ k : Fin 512, XL0 V c (ix2 ((((cfg0.win 2).blk t).view.emb (ix2 p q)) 0) k) * XR0 V c (ix2 k ((((cfg0.win 2).blk t).view.emb (ix2 p q)) 1))
  refine Finset.sum_congr rfl fun k _ => ?_
  show XL0 V c (((cfg0.win 0).blk t).view.emb (ix2 p k)) * XR0 V c (((cfg0.win 1).blk t).view.emb (ix2 k q)) = _
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 512 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 16 + 1 * q.val = win0_2.index t (1 : Fin 2) * 16 + 1 * q.val; omega
  rw [h0, h1]
  rfl

/-- An index of the array is in point `t`'s block iff each coordinate is in the block's range on its axis. -/
theorem mem_blk0 (t : Fin cfg0.N) (i : S8192x16.Idx) :
    i ∈ ((cfg0.win 2).blk t).view.set ↔ ∀ a : Fin 2, win0_2.index t a * S2048x16.size a ≤ (i a).val ∧ (i a).val < win0_2.index t a * S2048x16.size a + S2048x16.size a := by
  show i ∈ ((View.whole main_v0).slice (win0_2.rect t)).set ↔ _
  rw [View.set_slice_whole, Rect.mem_set_unit]
  exact Iff.rfl

/-- THE COVER: row r of the array is in the block of the point whose block row is r / 2048. -/
theorem cover0 (i : S8192x16.Idx) : ∃ t : Fin cfg0.N, (cfg0.win 2).flush t = true ∧ i ∈ ((cfg0.win 2).blk t).view.set := by
  have hi0 : (i 0).val < 8192 := (i 0).isLt
  have hi1 : (i 1).val < 16 := (i 1).isLt
  obtain ⟨t, ht⟩ := idx_onto0 ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 16 ≤ (i 1).val ∧ (i 1).val < win0_2.index t (1 : Fin 2) * 16 + 16; omega

/-- THE ARRAY the region leaves: the product of its two input arrays as the region finds them. -/
theorem final0 (c : Dev nD) : (dat0 V c).arrAt 2 cfg0.N = Cert.Spec.mm (N := 8192) (K := 512) (M := 16) (V c main_arg0) (V c main_arg5) :=
  (dat0 V c).arrAt_eq_of_cover 2 (G0 (XL0 V c) (XR0 V c)) (fun t _ => flushed0_eq V c t) cover0

end Cert.KernelIdeal.Hand

end
-- ==== Proof.KI.Val1.lean ====
/- REGION 1's value: the array the pallas_call leaves is the plain product of its two input arrays as the region finds
   them — entry (r, s) the sum over k of a(r, k) · b(k, s). Point t of the 4-point grid writes rows 2048·t … 2048·t + 2047 of the product of the hidden layer (8192 × 16) with the two second-layer weight matrices side by side (16 × 14), from that row block of the hidden layer and the whole weight matrix; the 4 blocks tile the array. -/
import proofs.«163352_j23356032156163_1_alg».proof.Proof.KI.Reg1
import proofs.«163352_j23356032156163_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The body's product at an index -/

/-- The product's dimension numbers: the left operand contracted on its columns, the right on its rows. -/
local notation "D1" => dot_S2048x16_S16x14_S2048x14_1_0_0_1_n_n

theorem lhs1_0 (i : S2048x14.Idx) (q : DotDims.contr D1 |>.Idx) : (DotDims.lhsIdx D1 i q 0).val = (i 0).val := by
  unfold DotDims.lhsIdx
  rw [dif_neg (show ¬(0 : Fin S2048x16.rank) ∈ DotDims.lhsBatch D1 by decide), dif_pos (show (0 : Fin S2048x16.rank) ∈ DotDims.lhsNonContracting D1 by decide)]
  rfl
theorem lhs1_1 (i : S2048x14.Idx) (q : DotDims.contr D1 |>.Idx) : (DotDims.lhsIdx D1 i q 1).val = (q ⟨0, by decide⟩).val :=
  DotDims.lhsIdx_val_of_single D1 rfl i q
theorem rhs1_0 (i : S2048x14.Idx) (q : DotDims.contr D1 |>.Idx) : (DotDims.rhsIdx D1 i q 0).val = (q ⟨0, by decide⟩).val :=
  DotDims.rhsIdx_val_of_single D1 rfl i q
theorem rhs1_1 (i : S2048x14.Idx) (q : DotDims.contr D1 |>.Idx) : (DotDims.rhsIdx D1 i q 1).val = (i 1).val := by
  unfold DotDims.rhsIdx
  rw [dif_neg (show ¬(1 : Fin S16x14.rank) ∈ DotDims.rhsBatch D1 by decide), dif_pos (show (1 : Fin S16x14.rank) ∈ DotDims.rhsNonContracting D1 by decide)]
  rfl

/-- The body's payload at entry (p, q) of the output block: the inner product of row p of the first input block with
    column q of the second (the narrowing to bf16 is the identity on the ideal values, the accumulator is zero). -/
theorem k1_pay1_apply (x0 : Vec Ideal S2048x16 .f32) (x1 : Vec Ideal S16x14 .f32) (p : Fin 2048) (q : Fin 14) :
    k1_pay1 (F := Ideal) x0 x1 (ix2 p q) = ∑ k : Fin 16, x0 (ix2 p k) * x1 (ix2 k q) := by
  unfold k1_pay1
  rw [shapeCast_self, shapeCast_self]
  refine (Ideal.matmul_constant_zero_apply D1 none _ _ (ix2 p q)).trans ?_
  rw [← Equiv.sum_comp (contrEquiv1 D1 16 rfl rfl).symm]
  refine Finset.sum_congr rfl fun k _ => ?_
  have hk := contrEquiv1_symm_val D1 16 rfl rfl k
  have el : DotDims.lhsIdx D1 (ix2 p q) ((contrEquiv1 D1 16 rfl rfl).symm k) = ix2 p k := funext fun a => Fin.ext (by
    match a with
    | ⟨0, _⟩ => exact lhs1_0 _ _
    | ⟨1, _⟩ => exact (lhs1_1 _ _).trans hk)
  have er : DotDims.rhsIdx D1 (ix2 p q) ((contrEquiv1 D1 16 rfl rfl).symm k) = ix2 k q := funext fun a => Fin.ext (by
    match a with
    | ⟨0, _⟩ => exact (rhs1_0 _ _).trans hk
    | ⟨1, _⟩ => exact rhs1_1 _ _)
  show x0 (DotDims.lhsIdx D1 (ix2 p q) ((contrEquiv1 D1 16 rfl rfl).symm k)) * x1 (DotDims.rhsIdx D1 (ix2 p q) ((contrEquiv1 D1 16 rfl rfl).symm k)) = _
  rw [el, er]

/-! ## From the blocks to the array -/

variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the left window's row block is the output's; the left window does
    not move along its columns, the right window does not move at all, the output does not move along its columns;
    the output's block rows are below 4. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 3 :=
  (by decide +kernel : ∀ t : Fin grid1.N, _)

/-- Every block of the output is some point's. -/
theorem idx_onto1 : ∀ (q0 : Fin 4), ∃ t : Fin cfg1.N, win1_2.index t = ![q0.val, 0] :=
  (by decide +kernel : ∀ (q0 : Fin 4), ∃ t : Fin grid1.N, win1_2.index t = ![q0.val, 0])

/-- The left and the right factor as the region finds them, as functions of their indices. -/
abbrev XL1 (c : Dev nD) : S8192x16.Idx → EReal := V c main_v17
abbrev XR1 (c : Dev nD) : S16x14.Idx → EReal := V c main_v18

/-- Their product, as the array the region leaves. -/
abbrev G1 (a : S8192x16.Idx → EReal) (b : S16x14.Idx → EReal) : S8192x14.Idx → EReal := Cert.Spec.mm (N := 8192) (K := 16) (M := 14) a b

/-- WHAT POINT `t` WRITES BACK is block `t` of the product of the two arrays as the region finds them. -/
theorem flushed1_eq (c : Dev nD) (t : Fin cfg1.N) :
    (dat1 V c).flushed 2 t = ((cfg1.win 2).blk t).view.read (Elt Ideal) (G1 (XL1 V c) (XR1 V c)) := by
  show (cfg1.win 2).cut (grid1.coords t) ((dat1 V c).after 2 t) = _
  rw [after1_2]
  unfold out1_2
  rw [View.canon_unit_zero hz1]
  simp only [View.ld_unit_zero (S := S2048x16) hz1, View.ld_unit_zero (S := S16x14) hz1]
  obtain ⟨e0, e1, e2, e3, e4, e5⟩ := idx_facts1 t
  funext j
  obtain ⟨p, q, rfl⟩ : ∃ (p : Fin 2048) (q : Fin 14), j = ix2 p q := ⟨j 0, j 1, eq_ix2 j⟩
  refine (k1_pay1_apply (iblk1 V c 0 t) (iblk1 V c 1 t) p q).trans ?_
  show _ = ∑ k : Fin 16, XL1 V c (ix2 ((((cfg1.win 2).blk t).view.emb (ix2 p q)) 0) k) * XR1 V c (ix2 k ((((cfg1.win 2).blk t).view.emb (ix2 p q)) 1))
  refine Finset.sum_congr rfl fun k _ => ?_
  show XL1 V c (((cfg1.win 0).blk t).view.emb (ix2 p k)) * XR1 V c (((cfg1.win 1).blk t).view.emb (ix2 k q)) = _
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 2048 + 1 * p.val = win1_2.index t (0 : Fin 2) * 2048 + 1 * p.val; omega
    | ⟨1, _⟩ => show win1_0.index t (1 : Fin 2) * 16 + 1 * k.val = k.val; omega
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 16 + 1 * k.val = k.val; omega
    | ⟨1, _⟩ => show win1_1.index t (1 : Fin 2) * 14 + 1 * q.val = win1_2.index t (1 : Fin 2) * 14 + 1 * q.val; omega
  rw [h0, h1]
  rfl

/-- An index of the array is in point `t`'s block iff each coordinate is in the block's range on its axis. -/
theorem mem_blk1 (t : Fin cfg1.N) (i : S8192x14.Idx) :
    i ∈ ((cfg1.win 2).blk t).view.set ↔ ∀ a : Fin 2, win1_2.index t a * S2048x14.size a ≤ (i a).val ∧ (i a).val < win1_2.index t a * S2048x14.size a + S2048x14.size a := by
  show i ∈ ((View.whole main_v19).slice (win1_2.rect t)).set ↔ _
  rw [View.set_slice_whole, Rect.mem_set_unit]
  exact Iff.rfl

/-- THE COVER: row r of the array is in the block of the point whose block row is r / 2048. -/
theorem cover1 (i : S8192x14.Idx) : ∃ t : Fin cfg1.N, (cfg1.win 2).flush t = true ∧ i ∈ ((cfg1.win 2).blk t).view.set := by
  have hi0 : (i 0).val < 8192 := (i 0).isLt
  have hi1 : (i 1).val < 14 := (i 1).isLt
  obtain ⟨t, ht⟩ := idx_onto1 ⟨(i 0).val / 2048, by omega⟩
  have q0 : win1_2.index t (0 : Fin 2) = (i 0).val / 2048 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 14 ≤ (i 1).val ∧ (i 1).val < win1_2.index t (1 : Fin 2) * 14 + 14; omega

/-- THE ARRAY the region leaves: the product of its two input arrays as the region finds them. -/
theorem final1 (c : Dev nD) : (dat1 V c).arrAt 2 cfg1.N = Cert.Spec.mm (N := 8192) (K := 16) (M := 14) (V c main_v17) (V c main_v18) :=
  (dat1 V c).arrAt_eq_of_cover 2 (G1 (XL1 V c) (XR1 V c)) (fun t _ => flushed1_eq V c t) cover1

end Cert.KernelIdeal.Hand

end
-- ==== Proof.KI.Val2.lean ====
/- REGION 2's value: the array the third pallas_call leaves is the product of the latent matrix, as the region finds
   it, with its own transpose — entry (r, s) the sum over the 7 columns k of z(r, k) · z(s, k). Point t of the 8 × 8
   grid writes the 1024 × 1024 block at block row t / 8 and block column t % 8, computed from row block t / 8 and
   row block t % 8 of the latent matrix; the 64 blocks tile the array. -/
import proofs.«163352_j23356032156163_1_alg».proof.Proof.KI.Reg2
import proofs.«163352_j23356032156163_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

/-! ## The body's product at an index -/

/-- The product's dimension numbers: both operands contracted on their column axis. -/
local notation "D₂" => dot_S1024x7_S1024x7_S1024x1024_1_1_0_0_n_n

theorem lhs2_0 (i : S1024x1024.Idx) (q : DotDims.contr D₂ |>.Idx) : (DotDims.lhsIdx D₂ i q 0).val = (i 0).val := by
  unfold DotDims.lhsIdx
  rw [dif_neg (show ¬(0 : Fin S1024x7.rank) ∈ DotDims.lhsBatch D₂ by decide), dif_pos (show (0 : Fin S1024x7.rank) ∈ DotDims.lhsNonContracting D₂ by decide)]
  rfl
theorem lhs2_1 (i : S1024x1024.Idx) (q : DotDims.contr D₂ |>.Idx) : (DotDims.lhsIdx D₂ i q 1).val = (q ⟨0, by decide⟩).val :=
  DotDims.lhsIdx_val_of_single D₂ rfl i q
theorem rhs2_0 (i : S1024x1024.Idx) (q : DotDims.contr D₂ |>.Idx) : (DotDims.rhsIdx D₂ i q 0).val = (i 1).val := by
  unfold DotDims.rhsIdx
  rw [dif_neg (show ¬(0 : Fin S1024x7.rank) ∈ DotDims.rhsBatch D₂ by decide), dif_pos (show (0 : Fin S1024x7.rank) ∈ DotDims.rhsNonContracting D₂ by decide)]
  rfl
theorem rhs2_1 (i : S1024x1024.Idx) (q : DotDims.contr D₂ |>.Idx) : (DotDims.rhsIdx D₂ i q 1).val = (q ⟨0, by decide⟩).val :=
  DotDims.rhsIdx_val_of_single D₂ rfl i q

/-- The body's payload at entry (p, q) of the output block: the inner product of row p of the first input block with
    row q of the second (the narrowing to bf16 is the identity on the ideal values, the accumulator is zero). -/
theorem k2_pay1_apply (x0 x1 : Vec Ideal S1024x7 .f32) (p q : Fin 1024) :
    k2_pay1 (F := Ideal) x0 x1 (ix2 p q) = ∑ k : Fin 7, x0 (ix2 p k) * x1 (ix2 q k) := by
  unfold k2_pay1
  rw [shapeCast_self, shapeCast_self]
  refine (Ideal.matmul_constant_zero_apply D₂ none _ _ (ix2 p q)).trans ?_
  rw [← Equiv.sum_comp (contrEquiv1 D₂ 7 rfl rfl).symm]
  refine Finset.sum_congr rfl fun k _ => ?_
  have hk := contrEquiv1_symm_val D₂ 7 rfl rfl k
  have el : DotDims.lhsIdx D₂ (ix2 p q) ((contrEquiv1 D₂ 7 rfl rfl).symm k) = ix2 p k := funext fun a => Fin.ext (by
    match a with
    | ⟨0, _⟩ => exact lhs2_0 _ _
    | ⟨1, _⟩ => exact (lhs2_1 _ _).trans hk)
  have er : DotDims.rhsIdx D₂ (ix2 p q) ((contrEquiv1 D₂ 7 rfl rfl).symm k) = ix2 q k := funext fun a => Fin.ext (by
    match a with
    | ⟨0, _⟩ => exact rhs2_0 _ _
    | ⟨1, _⟩ => exact (rhs2_1 _ _).trans hk)
  show x0 (DotDims.lhsIdx D₂ (ix2 p q) ((contrEquiv1 D₂ 7 rfl rfl).symm k)) * x1 (DotDims.rhsIdx D₂ (ix2 p q) ((contrEquiv1 D₂ 7 rfl rfl).symm k)) = _
  rw [el, er]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl

/-- The printed index maps, decided over the grid: window 0's row block is the output's block row and window 1's the
    output's block column; neither input window moves along its columns; the output's block indices are below 8. -/
theorem idx_facts2 : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 7 ∧ win2_2.index t (1 : Fin 2) ≤ 7 :=
  (by decide +kernel : ∀ t : Fin grid2.N, _)

/-- Every block of the output is some point's. -/
theorem idx_onto2 : ∀ (q0 : Fin 8) (q1 : Fin 8), ∃ t : Fin cfg2.N, win2_2.index t = ![q0.val, q1.val] :=
  (by decide +kernel : ∀ (q0 : Fin 8) (q1 : Fin 8), ∃ t : Fin grid2.N, win2_2.index t = ![q0.val, q1.val])

/-- The latent matrix as region 2 finds it, as a function of its index. -/
abbrev Z2 (c : Dev nD) : S8192x7.Idx → EReal := V c main_v41

/-- The product of the latent matrix with its transpose, as the array the region leaves. -/
abbrev G2 (z : S8192x7.Idx → EReal) : S8192x8192.Idx → EReal := Cert.Spec.mmT (N := 8192) (K := 7) (M := 8192) z z

/-- WHAT POINT `t` WRITES BACK is block `t` of the product of the latent matrix, as the region finds it, with its
    transpose. -/
theorem flushed2_eq (c : Dev nD) (t : Fin cfg2.N) :
    (dat2 V c).flushed 2 t = ((cfg2.win 2).blk t).view.read (Elt Ideal) (G2 (Z2 V c)) := by
  show (cfg2.win 2).cut (grid2.coords t) ((dat2 V c).after 2 t) = _
  rw [after2_2]
  unfold out2_2
  rw [View.canon_unit_zero hz2]
  simp only [View.ld_unit_zero (S := S1024x7) hz2]
  obtain ⟨e0, e1, e2, e3, e4, e5⟩ := idx_facts2 t
  funext j
  obtain ⟨p, q, rfl⟩ : ∃ (p q : Fin 1024), j = ix2 p q := ⟨j 0, j 1, eq_ix2 j⟩
  refine (k2_pay1_apply (iblk2 V c 0 t) (iblk2 V c 1 t) p q).trans ?_
  show _ = ∑ k : Fin 7, Z2 V c (ix2 ((((cfg2.win 2).blk t).view.emb (ix2 p q)) 0) k) * Z2 V c (ix2 ((((cfg2.win 2).blk t).view.emb (ix2 p q)) 1) k)
  refine Finset.sum_congr rfl fun k _ => ?_
  show Z2 V c (((cfg2.win 0).blk t).view.emb (ix2 p k)) * Z2 V c (((cfg2.win 1).blk t).view.emb (ix2 q k)) = _
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 1024 + 1 * p.val = win2_2.index t (0 : Fin 2) * 1024 + 1 * p.val; omega
    | ⟨1, _⟩ => show win2_0.index t (1 : Fin 2) * 7 + 1 * k.val = k.val; omega
  have h1 : ((cfg2.win 1).blk t).view.emb (ix2 q k) = ix2 ((((cfg2.win 2).blk t).view.emb (ix2 p q)) 1) k := by
    funext a; apply Fin.ext
    match a with
    | ⟨0, _⟩ => show win2_1.index t (0 : Fin 2) * 1024 + 1 * q.val = win2_2.index t (1 : Fin 2) * 1024 + 1 * q.val; omega
    | ⟨1, _⟩ => show win2_1.index t (1 : Fin 2) * 7 + 1 * k.val = k.val; omega
  rw [h0, h1]
  rfl

/-- An index of the array is in point `t`'s block iff each coordinate is in the block's range on its axis. -/
theorem mem_blk2 (t : Fin cfg2.N) (i : S8192x8192.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v42).slice (win2_2.rect t)).set ↔ _
  rw [View.set_slice_whole, Rect.mem_set_unit]
  exact Iff.rfl

/-- THE COVER: entry (r, s) of the array is in the block of the point whose block row is r / 1024 and whose block
    column is s / 1024. -/
theorem cover2 (i : S8192x8192.Idx) : ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := idx_onto2 ⟨(i 0).val / 1024, by omega⟩ ⟨(i 1).val / 1024, by omega⟩
  have q0 : win2_2.index t (0 : Fin 2) = (i 0).val / 1024 := congrFun ht 0
  have q1 : win2_2.index t (1 : Fin 2) = (i 1).val / 1024 := congrFun ht 1
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- THE ARRAY the region leaves: the product of the latent matrix, as the region finds it, with its own transpose. -/
theorem final2 (c : Dev nD) : (dat2 V c).arrAt 2 cfg2.N = Cert.Spec.mmT (N := 8192) (K := 7) (M := 8192) (V c main_v41) (V c main_v41) :=
  (dat2 V c).arrAt_eq_of_cover 2 (G2 (Z2 V c)) (fun t _ => flushed2_eq V c t) cover2

end Cert.KernelIdeal.Hand

end
-- ==== Proof.LibRowSparse.lean ====
/-
  Whole rows gathered and whole rows scattered and added, read index by index. A gather whose start words name a row
  of an `N × C` matrix (one start word per result row, the whole row taken) reads row `e` of its result from the row
  the `e`-th start word names, the word read signed and clamped into `[0, N − 1]`. A scatter with an adding body and
  the same layout adds update row `e` to the row its start word names, read signed and not clamped: an update whose
  word is outside `[0, N − 1]` is dropped. Both are stated for the dimension numbers with their well-formedness proof
  a variable, and for any record whose fields are those lists.
-/
import Idealize.ShloMosaic.PureOps.Ideal
import Idealize.ShloMosaic.Lib.ValueIdx
import proofs.«163352_j23356032156163_1_alg».proof.Proof.Spec

noncomputable section

open scoped BigOperators

namespace Cert.LibRowSparse

open Idealize.ShloMosaic Idealize.ShloMosaic.ValueIdx

/-! ## Rows gathered -/

/-- The dimension numbers of a gather of whole rows. -/
abbrev rowGatherDims (N C M : ℕ)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- A gather of whole rows at those dimension numbers is `gatherRows`: result entry `(e, q)` is the operand's entry
    `(srcRow e, q)`. The first coordinate of the operand index is the clamped start word (no batching or offset part on
    a collapsed axis); the second is the result's offset coordinate (no start on an axis the start index map leaves out). -/
theorem gather_rows_lit {N C M : ℕ} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → EReal) (idx : (⟨2, ![M, 1]⟩ : Shape).Idx → BitVec 32) :
    Host.gather (rowGatherDims N C M wf) x idx = Cert.Spec.gatherRows hN x idx := by
  funext y
  unfold Host.gather Cert.Spec.gatherRows
  congr 1
  funext a
  refine Fin.ext ?_
  match a with
  | ⟨0, _⟩ =>
    show (rowGatherDims N C M wf).start y idx 0 + (rowGatherDims N C M wf).batchCoord y 0 + (rowGatherDims N C M wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C M wf).startIndexMap from List.mem_singleton.mpr rfl)]
    have hsi : (rowGatherDims N C M wf).siIdx y ⟨List.idxOf (0 : Fin 2) (rowGatherDims N C M wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  | ⟨1, _⟩ =>
    show (rowGatherDims N C M wf).start y idx 1 + (rowGatherDims N C M wf).batchCoord y 1 + (rowGatherDims N C M wf).offCoord y 1 = _
    rw [GatherDims.batchCoord_eq_zero _ _ _ List.not_mem_nil]
    have hs : (rowGatherDims N C M wf).start y idx 1 = 0 := by
      unfold GatherDims.start
      rw [dif_neg (show ¬ (1 : Fin 2) ∈ ([0] : List (Fin 2)) by decide)]
    rw [hs]
    simp only [Nat.add_zero, Nat.zero_add]
    rfl

/-- The same for any dimension-number record with those fields. -/
theorem gather_rows {N C M : ℕ} (hN : 0 < N) (d : GatherDims ⟨2, ![N, C]⟩ ⟨2, ![M, 1]⟩ ⟨2, ![M, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → EReal) (idx : (⟨2, ![M, 1]⟩ : Shape).Idx → BitVec 32) :
    Host.gather d x idx = Cert.Spec.gatherRows hN x idx := by
  obtain ⟨od, cs, ob, sb, sim, iv, ss, wf⟩ := d
  dsimp only at h1 h2 h3 h4 h5 h6 h7
  subst h1 h2 h3 h4 h5 h6 h7
  exact gather_rows_lit hN wf x idx

/-! ## Rows scattered and added -/

/-- The dimension numbers of a scatter of whole rows. -/
abbrev rowScatterDims (N C M : ℕ)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Scatter
variable {N C M : ℕ} (wf : ScatterDims.WF ⟨2, ![N, C]⟩ ⟨2, ![M, 1]⟩ ⟨2, ![M, C]⟩ [1] [0] [0] 1)
  (idx : (⟨2, ![M, 1]⟩ : Shape).Idx → BitVec 32) (j : (⟨2, ![M, C]⟩ : Shape).Idx)

/-- On the row axis an update's window starts at its start word read signed … -/
theorem scatter_start0 : (rowScatterDims N C M wf).start j idx 0 = (idx (ix2 (j 0) 0)).toInt := by
  unfold ScatterDims.start
  rw [dif_pos (show (0 : Fin 2) ∈ ([0] : List (Fin 2)) from List.mem_singleton.mpr rfl)]
  have hsi : (rowScatterDims N C M wf).siIdx j ⟨List.idxOf (0 : Fin 2) (rowScatterDims N C M wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at zero. -/
theorem scatter_start1 : (rowScatterDims N C M wf).start j idx 1 = 0 := by
  unfold ScatterDims.start
  rw [dif_neg (show ¬ (1 : Fin 2) ∈ ([0] : List (Fin 2)) by decide)]

/-- The window coordinate is zero on the (inserted) row axis … -/
theorem scatter_window0 : (rowScatterDims N C M wf).window j 0 = 0 := by
  have h : ¬ (0 : Fin 2) ∈ (rowScatterDims N C M wf).sKept :=
    (show ¬ (0 : Fin 2) ∈ (List.finRange 2).filter (· ∉ ([0] : List (Fin 2))) by decide)
  unfold ScatterDims.window
  rw [dif_neg h]

/-- … and the update's column on the column axis. -/
theorem scatter_window1 : (rowScatterDims N C M wf).window j 1 = (j 1).val := by
  have h : (1 : Fin 2) ∈ (rowScatterDims N C M wf).sKept :=
    (show (1 : Fin 2) ∈ (List.finRange 2).filter (· ∉ ([0] : List (Fin 2))) by decide)
  unfold ScatterDims.window
  rw [dif_pos h]
  rfl

/-- Update index `j` lands on operand index `i` exactly when `j`'s row's start word, read signed, is `i`'s row and the
    columns agree (a start word outside `[0, N − 1]` lands nowhere). -/
theorem resultIdx?_eq_some_iff (i : (⟨2, ![N, C]⟩ : Shape).Idx) :
    (rowScatterDims N C M wf).resultIdx? j idx = some i ↔
      ((idx (ix2 (j 0) 0)).toInt = ((i 0).val : ℤ) ∧ (j 1).val = (i 1).val) := by
  have hiN := idx2_lt0 i
  have hiC := idx2_lt1 i
  have hjC := idx2_lt1 j
  unfold ScatterDims.resultIdx?
  split
  · rename_i h
    rw [Option.some.injEq]
    constructor
    · intro hf
      subst hf
      refine ⟨?_, ?_⟩
      · show _ = ((((rowScatterDims N C M wf).start j idx 0 + (rowScatterDims N C M wf).window j 0).toNat : ℕ) : ℤ)
        have := h 0
        rw [scatter_start0, scatter_window0] at this ⊢
        omega
      · show _ = ((rowScatterDims N C M wf).start j idx 1 + (rowScatterDims N C M wf).window j 1).toNat
        rw [scatter_start1, scatter_window1]; omega
    · rintro ⟨h0, h1⟩
      funext a
      refine Fin.ext ?_
      match a with
      | ⟨0, _⟩ =>
        show ((rowScatterDims N C M wf).start j idx 0 + (rowScatterDims N C M wf).window j 0).toNat = (i 0).val
        rw [scatter_start0, scatter_window0, h0]; omega
      | ⟨1, _⟩ =>
        show ((rowScatterDims N C M wf).start j idx 1 + (rowScatterDims N C M wf).window j 1).toNat = (i 1).val
        rw [scatter_start1, scatter_window1, ← h1]; omega
  · rename_i h
    constructor
    · intro hf; exact absurd hf (by simp)
    · rintro ⟨h0, h1⟩
      exfalso; apply h
      intro a
      match a with
      | ⟨0, _⟩ =>
        show 0 ≤ (rowScatterDims N C M wf).start j idx 0 + (rowScatterDims N C M wf).window j 0 ∧
          (rowScatterDims N C M wf).start j idx 0 + (rowScatterDims N C M wf).window j 0 < (N : ℤ)
        rw [scatter_start0, scatter_window0, h0]; constructor <;> omega
      | ⟨1, _⟩ =>
        show 0 ≤ (rowScatterDims N C M wf).start j idx 1 + (rowScatterDims N C M wf).window j 1 ∧
          (rowScatterDims N C M wf).start j idx 1 + (rowScatterDims N C M wf).window j 1 < (C : ℤ)
        rw [scatter_start1, scatter_window1]; constructor <;> omega

/-- The same with the update index given by its coordinates. -/
theorem resultIdx?_ix2 (e : Fin M) (b : Fin C) (i : (⟨2, ![N, C]⟩ : Shape).Idx) :
    (rowScatterDims N C M wf).resultIdx? (ix2 e b) idx = some i ↔
      ((idx (ix2 e 0)).toInt = ((i 0).val : ℤ) ∧ b.val = (i 1).val) :=
  resultIdx?_eq_some_iff wf idx (ix2 e b) i

end Scatter

/-- A sum over a row's columns of a term present only at column `q` (and only when `P` holds) is that term. -/
theorem sum_row_pick {C : ℕ} {α : Type*} [AddCommMonoid α] (P : Prop) [Decidable P] (q : Fin C) (f : Fin C → α)
    [∀ b : Fin C, Decidable (P ∧ b.val = q.val)] :
    (∑ b : Fin C, if P ∧ b.val = q.val then f b else 0) = if P then f q else 0 := by
  by_cases hP : P
  · rw [if_pos hP, Finset.sum_eq_single q]
    · rw [if_pos ⟨hP, rfl⟩]
    · intro b _ hb
      rw [if_neg]
      rintro ⟨_, h⟩
      exact hb (Fin.ext h)
    · intro h; exact absurd (Finset.mem_univ _) h
  · rw [if_neg hP]
    refine Finset.sum_eq_zero fun b _ => ?_
    rw [if_neg]
    rintro ⟨h, _⟩
    exact hP h

/-- A scatter of whole rows with an adding body at those dimension numbers is `scatterAddRows`: the sum over the
    update indices landing on `(n, q)` is, row by row, the sum over the rows `e` whose start word is `n` of update entry
    `(e, q)`. -/
theorem scatterAdd_rows_lit {N C M : ℕ}
    (wf : ScatterDims.WF ⟨2, ![N, C]⟩ ⟨2, ![M, 1]⟩ ⟨2, ![M, C]⟩ [1] [0] [0] 1)
    (x : (⟨2, ![N, C]⟩ : Shape).Idx → EReal) (idx : (⟨2, ![M, 1]⟩ : Shape).Idx → BitVec 32)
    (upd : (⟨2, ![M, C]⟩ : Shape).Idx → EReal) :
    Host.scatterAdd (F := Ideal) (φ := .f32) (rowScatterDims N C M wf) x idx upd = Cert.Spec.scatterAddRows x idx upd := by
  funext i
  show Ideal.hostScatterAdd (rowScatterDims N C M wf) x idx upd i = _
  unfold Ideal.hostScatterAdd Cert.Spec.scatterAddRows
  congr 1
  rw [Finset.sum_filter, Finset.sum_filter, sum_idx2]
  refine Finset.sum_congr rfl fun e _ => ?_
  refine (Finset.sum_congr rfl fun b _ => if_congr (resultIdx?_ix2 wf idx e b i) rfl rfl).trans ?_
  exact sum_row_pick _ (i 1) (fun b => upd (ix2 e b))

/-- The same for any dimension-number record with those fields. -/
theorem scatterAdd_rows {N C M : ℕ} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : (⟨2, ![M, 1]⟩ : Shape).Idx → BitVec 32)
    (upd : (⟨2, ![M, C]⟩ : Shape).Idx → EReal) :
    Host.scatterAdd (F := Ideal) (φ := .f32) d x idx upd = Cert.Spec.scatterAddRows x idx upd := by
  obtain ⟨uw, iw, sd, iv, wf⟩ := d
  dsimp only at h1 h2 h3 h4
  subst h1 h2 h3 h4
  exact scatterAdd_rows_lit wf x idx upd

end Cert.LibRowSparse

end
-- ==== Proof.LibGraphStages.lean ====
/-
  The stages of a two-layer graph network on the extended reals, each read as the index-by-index function it computes:
  the sparse aggregation (rows gathered by source word, scaled by the edge weight, scattered and added by destination
  word into zeros), a bias added along rows, a clip below at zero, a plain matrix product and a product with the
  transposed matrix, and a flattening of a square matrix. Stated for any dimension-number records with the given
  fields and any proofs of the broadcast side conditions, so that they apply to every printing of these operations.
-/
import Idealize.ShloMosaic.PureOps.Ideal
import Idealize.ShloMosaic.PureOps.Ideal.Laws
import Idealize.ShloMosaic.Lib.ValueIdx
import Idealize.ShloMosaic.Lib.Pipeline.Value
import proofs.«163352_j23356032156163_1_alg».proof.Proof.Spec
import proofs.«163352_j23356032156163_1_alg».proof.Proof.LibRowSparse

noncomputable section

open scoped BigOperators

namespace Cert.LibGraphStages

open Idealize.ShloMosaic Idealize.ShloMosaic.ValueIdx Cert.LibRowSparse

/-! ## The aggregation -/

/-- A row weight broadcast along the columns, read at an index: the weight of the index's row. -/
theorem weight_bcast_apply {E C : ℕ} (hE : E ≠ 1)
    (p1 : (⟨2, ![E, 1]⟩ : Shape).BroadcastsInDim ⟨2, ![E, C]⟩ (![0, 1] : Fin 2 → Fin 2))
    (p2 : (⟨1, ![E]⟩ : Shape).BroadcastsInDim ⟨2, ![E, 1]⟩ (![0] : Fin 1 → Fin 2))
    (w : (⟨1, ![E]⟩ : Shape).Idx → EReal) (i : (⟨2, ![E, C]⟩ : Shape).Idx) :
    broadcastInDim ⟨2, ![E, C]⟩ ![0, 1] p1 (broadcastInDim ⟨2, ![E, 1]⟩ ![0] p2 w) i = w (ix1 (i 0)) := by
  rw [broadcastInDim_apply _ p1 _ i (ix2 (i 0) 0) (fun a => match a with
      | ⟨0, _⟩ => by show (i 0).val = if E = 1 then 0 else (i 0).val; rw [if_neg hE]
      | ⟨1, _⟩ => by show 0 = if (1 : Nat) = 1 then 0 else (i 1).val; rw [if_pos rfl]),
    broadcastInDim_apply _ p2 w (ix2 (i 0) 0) (ix1 (i 0)) (fun a => match a with
      | ⟨0, _⟩ => by show (i 0).val = if E = 1 then 0 else (i 0).val; rw [if_neg hE])]

/-- THE AGGREGATION STAGE: rows of `H` gathered by the source words, each scaled by its edge's weight, scattered and
    added by the destination words into a zero matrix, is `Spec.agg`. -/
theorem agg_stage {C : ℕ}
    (ds : ScatterDims ⟨2, ![8192, C]⟩ ⟨2, ![524288, 1]⟩ ⟨2, ![524288, C]⟩)
    (hs1 : ds.updateWindowDims = [1]) (hs2 : ds.insertedWindowDims = [0]) (hs3 : ds.scatterDimsToOperandDims = [0])
    (hs4 : ds.indexVectorDim = 1)
    (dg : GatherDims ⟨2, ![8192, C]⟩ ⟨2, ![524288, 1]⟩ ⟨2, ![524288, C]⟩)
    (hg1 : dg.offsetDims = [1]) (hg2 : dg.collapsedSliceDims = [0]) (hg3 : dg.operandBatchingDims = [])
    (hg4 : dg.startIndicesBatchingDims = []) (hg5 : dg.startIndexMap = [0]) (hg6 : dg.indexVectorDim = 1)
    (hg7 : dg.sliceSizes = ![1, C])
    (p0 : (⟨0, ![]⟩ : Shape).BroadcastsInDim ⟨2, ![8192, C]⟩ (![] : Fin 0 → Fin 2))
    (p1 : (⟨2, ![524288, 1]⟩ : Shape).BroadcastsInDim ⟨2, ![524288, C]⟩ (![0, 1] : Fin 2 → Fin 2))
    (p2 : (⟨1, ![524288]⟩ : Shape).BroadcastsInDim ⟨2, ![524288, 1]⟩ (![0] : Fin 1 → Fin 2))
    (w : (⟨1, ![524288]⟩ : Shape).Idx → EReal) (ridx cidx : (⟨2, ![524288, 1]⟩ : Shape).Idx → BitVec 32)
    (H : (⟨2, ![8192, C]⟩ : Shape).Idx → EReal) :
    Host.scatterAdd (F := Ideal) (φ := .f32) ds
        (broadcastInDim ⟨2, ![8192, C]⟩ ![] p0 (constant (F := Ideal) ⟨0, ![]⟩ .f32 0x00000000#32)) ridx
        (mulf (F := Ideal) (φ := .f32)
          (broadcastInDim ⟨2, ![524288, C]⟩ ![0, 1] p1 (broadcastInDim ⟨2, ![524288, 1]⟩ ![0] p2 w))
          (Host.gather dg H cidx))
      = Cert.Spec.agg w ridx cidx H := by
  refine (scatterAdd_rows ds hs1 hs2 hs3 hs4 _ _ _).trans ?_
  rw [gather_rows (by decide) dg hg1 hg2 hg3 hg4 hg5 hg6 hg7]
  unfold Cert.Spec.agg
  congr 1
  · funext i
    show Ideal.ofBits .f32 0x00000000#32 = 0
    exact Ideal.ofBits_zero_f32
  · funext i
    show broadcastInDim ⟨2, ![524288, C]⟩ ![0, 1] p1 (broadcastInDim ⟨2, ![524288, 1]⟩ ![0] p2 w) i * _ = w (ix1 (i 0)) * _
    rw [weight_bcast_apply (by decide) p1 p2 w i]

/-! ## Bias and clip -/

/-- A bias vector broadcast along the rows, read at an index: the bias of the index's column. -/
theorem bias_bcast_apply {N C : ℕ}
    (q1 : (⟨2, ![1, C]⟩ : Shape).BroadcastsInDim ⟨2, ![N, C]⟩ (![0, 1] : Fin 2 → Fin 2))
    (q2 : (⟨1, ![C]⟩ : Shape).BroadcastsInDim ⟨2, ![1, C]⟩ (![1] : Fin 1 → Fin 2))
    (b : (⟨1, ![C]⟩ : Shape).Idx → EReal) (i : (⟨2, ![N, C]⟩ : Shape).Idx) :
    broadcastInDim ⟨2, ![N, C]⟩ ![0, 1] q1 (broadcastInDim ⟨2, ![1, C]⟩ ![1] q2 b) i = b (ix1 (i 1)) := by
  have hC := idx2_lt1 i
  rw [broadcastInDim_apply _ q1 _ i (ix2 0 (i 1)) (fun a => match a with
      | ⟨0, _⟩ => by show 0 = if (1 : Nat) = 1 then 0 else (i 0).val; rw [if_pos rfl]
      | ⟨1, _⟩ => by
        show (i 1).val = if C = 1 then 0 else (i 1).val
        split_ifs with h
        · omega
        · rfl),
    broadcastInDim_apply _ q2 b (ix2 0 (i 1)) (ix1 (i 1)) (fun a => match a with
      | ⟨0, _⟩ => by
        show (i 1).val = if C = 1 then 0 else (i 1).val
        split_ifs with h
        · omega
        · rfl)]

/-- THE BIAS STAGE: adding a bias vector broadcast along the rows adds, at each index, the bias of its column. -/
theorem bias_stage {N C : ℕ}
    (q1 : (⟨2, ![1, C]⟩ : Shape).BroadcastsInDim ⟨2, ![N, C]⟩ (![0, 1] : Fin 2 → Fin 2))
    (q2 : (⟨1, ![C]⟩ : Shape).BroadcastsInDim ⟨2, ![1, C]⟩ (![1] : Fin 1 → Fin 2))
    (A : (⟨2, ![N, C]⟩ : Shape).Idx → EReal) (b : (⟨1, ![C]⟩ : Shape).Idx → EReal) :
    addf (F := Ideal) (φ := .f32) A (broadcastInDim ⟨2, ![N, C]⟩ ![0, 1] q1 (broadcastInDim ⟨2, ![1, C]⟩ ![1] q2 b))
      = fun i => A i + b (ix1 (i 1)) := by
  funext i
  show A i + broadcastInDim ⟨2, ![N, C]⟩ ![0, 1] q1 (broadcastInDim ⟨2, ![1, C]⟩ ![1] q2 b) i = _
  rw [bias_bcast_apply q1 q2 b i]

/-- THE CLIP STAGE: the maximum with a zero splat is the maximum with zero at each index. -/
theorem relu_stage {N C : ℕ}
    (p0 : (⟨0, ![]⟩ : Shape).BroadcastsInDim ⟨2, ![N, C]⟩ (![] : Fin 0 → Fin 2))
    (A : (⟨2, ![N, C]⟩ : Shape).Idx → EReal) :
    maximumf (F := Ideal) (φ := .f32) A
        (broadcastInDim ⟨2, ![N, C]⟩ ![] p0 (constant (F := Ideal) ⟨0, ![]⟩ .f32 0x00000000#32))
      = fun i => max (A i) 0 := by
  funext i
  show max (A i) (Ideal.ofBits .f32 0x00000000#32) = max (A i) 0
  rw [Ideal.ofBits_zero_f32]

/-! ## Products -/

/-- The dimension numbers of a plain product of an `N × K` by a `K × M` matrix. -/
abbrev plainDotDims (N K M : ℕ)
    (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

/-- A plain host product at those dimension numbers is `Spec.mm`: entry `(p, q)` is the sum over `k` of
    `a(p, k) · b(k, q)`. -/
theorem dot_mm_lit {N K M : ℕ}
    (wf : DotDims.WF ⟨2, ![N, K]⟩ ⟨2, ![K, M]⟩ ⟨2, ![N, M]⟩ [1] [0] [0] [1] [] [])
    (a : (⟨2, ![N, K]⟩ : Shape).Idx → EReal) (b : (⟨2, ![K, M]⟩ : Shape).Idx → EReal) :
    Host.dotGeneral (F := Ideal) (φ₁ := .f32) (φ₂ := .f32) (plainDotDims N K M wf) none a b = Cert.Spec.mm a b := by
  funext i
  simp only [Host.dotGeneral]
  rw [Ideal.dotGeneral_apply, ← Equiv.sum_comp (contrEquiv1 (plainDotDims N K M wf) K rfl rfl).symm]
  unfold Cert.Spec.mm
  refine Finset.sum_congr rfl fun k _ => ?_
  have hk := contrEquiv1_symm_val (plainDotDims N K M wf) K rfl rfl k
  have el : (plainDotDims N K M wf).lhsIdx i ((contrEquiv1 (plainDotDims N K M wf) K rfl rfl).symm k) = ix2 (i 0) k :=
    funext fun c => Fin.ext (by
      match c with
      | ⟨0, _⟩ =>
        show ((plainDotDims N K M wf).lhsIdx i _ 0).val = (i 0).val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDotDims N K M wf).lhsIdx_val_of_single rfl i _).trans hk)
  have er : (plainDotDims N K M wf).rhsIdx i ((contrEquiv1 (plainDotDims N K M wf) K rfl rfl).symm k) = ix2 k (i 1) :=
    funext fun c => Fin.ext (by
      match c with
      | ⟨0, _⟩ => exact ((plainDotDims N K M wf).rhsIdx_val_of_single rfl i _).trans hk
      | ⟨1, _⟩ =>
        show ((plainDotDims N K M wf).rhsIdx i _ 1).val = (i 1).val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]
  rfl

/-- The same for any dimension-number record with those fields. -/
theorem dot_mm {N K M : ℕ} (d : DotDims ⟨2, ![N, K]⟩ ⟨2, ![K, M]⟩ ⟨2, ![N, M]⟩)
    (h1 : d.lhsContracting = [1]) (h2 : d.rhsContracting = [0]) (h3 : d.lhsNonContracting = [0])
    (h4 : d.rhsNonContracting = [1]) (h5 : d.lhsBatch = []) (h6 : d.rhsBatch = [])
    (a : (⟨2, ![N, K]⟩ : Shape).Idx → EReal) (b : (⟨2, ![K, M]⟩ : Shape).Idx → EReal) :
    Host.dotGeneral (F := Ideal) (φ₁ := .f32) (φ₂ := .f32) d none a b = Cert.Spec.mm a b := by
  obtain ⟨lc, rc, ln, rn, lb, rb, wf⟩ := d
  dsimp only at h1 h2 h3 h4 h5 h6
  subst h1 h2 h3 h4 h5 h6
  exact dot_mm_lit wf a b

/-- A transposed matrix read at an index. -/
theorem transpose_rows_apply {N K : ℕ} (z : (⟨2, ![N, K]⟩ : Shape).Idx → EReal)
    (h : (⟨2, ![N, K]⟩ : Shape).Transposes [1, 0] ⟨2, ![K, N]⟩) (i : (⟨2, ![K, N]⟩ : Shape).Idx) :
    transpose ⟨2, ![K, N]⟩ [1, 0] z h i = z (ix2 (i 1) (i 0)) :=
  transpose_apply [1, 0] z h i (ix2 (i 1) (i 0)) (fun b => match b with
    | ⟨0, _⟩ => rfl
    | ⟨1, _⟩ => rfl)

/-- The product of a matrix with another's transpose is `Spec.mmT`: entry `(p, q)` is the inner product of row `p` of
    the first and row `q` of the second. -/
theorem dot_mmT {N K M : ℕ} (d : DotDims ⟨2, ![N, K]⟩ ⟨2, ![K, M]⟩ ⟨2, ![N, M]⟩)
    (h1 : d.lhsContracting = [1]) (h2 : d.rhsContracting = [0]) (h3 : d.lhsNonContracting = [0])
    (h4 : d.rhsNonContracting = [1]) (h5 : d.lhsBatch = []) (h6 : d.rhsBatch = [])
    (ht : (⟨2, ![M, K]⟩ : Shape).Transposes [1, 0] ⟨2, ![K, M]⟩)
    (a : (⟨2, ![N, K]⟩ : Shape).Idx → EReal) (b : (⟨2, ![M, K]⟩ : Shape).Idx → EReal) :
    Host.dotGeneral (F := Ideal) (φ₁ := .f32) (φ₂ := .f32) d none a (transpose ⟨2, ![K, M]⟩ [1, 0] b ht)
      = Cert.Spec.mmT a b := by
  rw [dot_mm d h1 h2 h3 h4 h5 h6]
  funext i
  unfold Cert.Spec.mm Cert.Spec.mmT
  refine Finset.sum_congr rfl fun k _ => ?_
  rw [transpose_rows_apply b ht]
  rfl

/-! ## The flattening -/

/-- A square matrix of side `8192` flattened row by row, read at position `t`: the entry at row `t / 8192`, column
    `t % 8192`. -/
theorem flatten_apply (y : (⟨2, ![8192, 8192]⟩ : Shape).Idx → EReal)
    (h : (⟨2, ![8192, 8192]⟩ : Shape).ShapeCasts ⟨1, ![67108864]⟩) (i : (⟨1, ![67108864]⟩ : Shape).Idx) :
    shapeCast ⟨1, ![67108864]⟩ y h i
      = y (ix2 (⟨(i 0).val / 8192, by have h : (i 0).val < 67108864 := (i 0).isLt; omega⟩ : Fin 8192)
          (⟨(i 0).val % 8192, Nat.mod_lt _ (by decide)⟩ : Fin 8192)) :=
  shapeCast_apply y h i _
    (by rewrite [Shape.rowMajor_val_two, Shape.rowMajor_val_one]; have h0 : (i 0).val < 67108864 := (i 0).isLt; show ((i 0).val) / 8192 * 8192 + ((i 0).val) % 8192 = (i 0).val; omega)

end Cert.LibGraphStages

end
-- ==== Proof.KI.Value.lean ====
/-
  The kernel program's result, read: the fold of the run's buffer contents, stage by stage, is the common
  specification. Each kernel region's output array is a matrix product of its two input arrays; the host
  operations between them are the graph aggregation, the biases, the clipping at zero and the sampling; the last
  region's product is flattened. The 14-column aggregation followed by two column slices is the 7-column
  aggregation of each half, because an aggregation acts on each column by itself and column j of h·[W2|W3] is
  column j of h·W2 (j < 7) or column j−7 of h·W3.
-/
import proofs.«163352_j23356032156163_1_alg».proof.Proof.KI.Run
import proofs.«163352_j23356032156163_1_alg».proof.Proof.KI.Stretch
import proofs.«163352_j23356032156163_1_alg».proof.Proof.KI.Val0
import proofs.«163352_j23356032156163_1_alg».proof.Proof.KI.Val1
import proofs.«163352_j23356032156163_1_alg».proof.Proof.KI.Val2
import proofs.«163352_j23356032156163_1_alg».proof.Proof.Spec
import proofs.«163352_j23356032156163_1_alg».proof.Proof.LibRowSparse
import proofs.«163352_j23356032156163_1_alg».proof.Proof.LibGraphStages
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.StableHlo Idealize.SL.Sem
open Idealize.ShloMosaic.ValueIdx Cert.LibGraphStages

variable (m : (ℓ : Loc nD τ sig) → Buf (Elt Ideal) ℓ) (c : Dev nD)

/-! ## The argument arrays -/

abbrev aX : FVec Ideal S8192x512 .f32 := m ((c : Thread nD τ).loc main_arg0)
abbrev aRow : S524288.Idx → BitVec 32 := m ((c : Thread nD τ).loc main_arg1)
abbrev aCol : S524288.Idx → BitVec 32 := m ((c : Thread nD τ).loc main_arg2)
abbrev aW : FVec Ideal S524288 .f32 := m ((c : Thread nD τ).loc main_arg3)
abbrev aEps : FVec Ideal S8192x7 .f32 := m ((c : Thread nD τ).loc main_arg4)
abbrev aW1 : FVec Ideal S512x16 .f32 := m ((c : Thread nD τ).loc main_arg5)
abbrev aB1 : FVec Ideal S16 .f32 := m ((c : Thread nD τ).loc main_arg6)
abbrev aW2 : FVec Ideal S16x7 .f32 := m ((c : Thread nD τ).loc main_arg7)
abbrev aB2 : FVec Ideal S7 .f32 := m ((c : Thread nD τ).loc main_arg8)
abbrev aW3 : FVec Ideal S16x7 .f32 := m ((c : Thread nD τ).loc main_arg9)
abbrev aB3 : FVec Ideal S7 .f32 := m ((c : Thread nD τ).loc main_arg10)

/-! ## A buffer nothing has written yet holds its launch contents -/

theorem W1_arg (r : Ref sig .tc) (o0 : r ≠ Pipeline.arrRef spec0 2) : W1 m c r = m ((c : Thread nD τ).loc r) := W1_of m c r o0
theorem W2_arg (r : Ref sig .tc) (h1 : r ∉ hostOps1_W) (o0 : r ≠ Pipeline.arrRef spec0 2) : W2 m c r = m ((c : Thread nD τ).loc r) :=
  (StableHlo.after_of_writes_sub hostOps1 _ hostOps1_writes h1).trans (W1_arg m c r o0)
theorem W3_arg (r : Ref sig .tc) (h11 : r ∉ hostOps1_1_W) (h1 : r ∉ hostOps1_W) (o0 : r ≠ Pipeline.arrRef spec0 2) : W3 m c r = m ((c : Thread nD τ).loc r) :=
  (StableHlo.after_of_writes_sub hostOps1_1 _ hostOps1_1_writes h11).trans (W2_arg m c r h1 o0)
theorem W4_arg (r : Ref sig .tc) (h12 : r ∉ hostOps1_2_W) (h11 : r ∉ hostOps1_1_W) (h1 : r ∉ hostOps1_W) (o0 : r ≠ Pipeline.arrRef spec0 2) : W4 m c r = m ((c : Thread nD τ).loc r) :=
  (StableHlo.after_of_writes_sub hostOps1_2 _ hostOps1_2_writes h12).trans (W3_arg m c r h11 h1 o0)
theorem W5_arg (r : Ref sig .tc) (o1 : r ≠ Pipeline.arrRef spec1 2) (h12 : r ∉ hostOps1_2_W) (h11 : r ∉ hostOps1_1_W) (h1 : r ∉ hostOps1_W) (o0 : r ≠ Pipeline.arrRef spec0 2) : W5 m c r = m ((c : Thread nD τ).loc r) :=
  (W5_of m c r o1).trans (W4_arg m c r h12 h11 h1 o0)

/-! ## Stage by stage -/

/-- Region 0 leaves the first product `X · W1`. -/
theorem W1_v0 : (W1 m c main_v0 : FVec Ideal S8192x16 .f32) = Cert.Spec.mm (aX m c) (aW1 m c) :=
  (W1_out m c).trans (final0 (VA0 m) c)

/-- The first stretch leaves the aggregation of that product plus the first bias. -/
theorem W2_v16 : (W2 m c main_v16 : FVec Ideal S8192x16 .f32)
    = fun i => Cert.Spec.agg (aW m c) (ridxOf (aRow m c)) (cidxOf (aCol m c)) (Cert.Spec.mm (aX m c) (aW1 m c)) i + aB1 m c (ix1 (i 1)) := by
  refine (stretch1_v16 (W1 m c)).trans ?_
  simp only [ridxK, cidxK, wcolK, wcolOf]
  rw [W1_v0 m c, W1_arg m c main_arg1 (by decide), W1_arg m c main_arg2 (by decide), W1_arg m c main_arg3 (by decide), W1_arg m c main_arg6 (by decide)]
  rw [agg_stage scatter_S8192x16_S524288x1_S524288x16_1_0_0_1 rfl rfl rfl rfl gather_S8192x16_S524288x1_S524288x16_1_0_n_n_0_1_116 rfl rfl rfl rfl rfl rfl rfl]
  exact bias_stage _ _ _ _

/-- The clipping at zero gives the hidden layer. -/
theorem W3_v17 : (W3 m c main_v17 : FVec Ideal S8192x16 .f32)
    = Cert.Spec.hidden (aX m c) (aW m c) (ridxOf (aRow m c)) (cidxOf (aCol m c)) (aW1 m c) (aB1 m c) := by
  refine (stretch1_1_v17 (W2 m c)).trans ?_
  rw [W2_v16 m c]
  exact relu_stage _ _

/-- The two head matrices side by side. -/
theorem W4_v18 : (W4 m c main_v18 : FVec Ideal S16x14 .f32)
    = concatenate S16x14 1 [⟨S16x7, aW2 m c⟩, ⟨S16x7, aW3 m c⟩] concatenates_S16x7_S16x7_S16x14_d1 := by
  refine (stretch1_2_v18 (W3 m c)).trans ?_
  rw [W3_arg m c main_arg7 (by decide) (by decide) (by decide), W3_arg m c main_arg9 (by decide) (by decide) (by decide)]

theorem W4_v17 : (W4 m c main_v17 : FVec Ideal S8192x16 .f32)
    = Cert.Spec.hidden (aX m c) (aW m c) (ridxOf (aRow m c)) (cidxOf (aCol m c)) (aW1 m c) (aB1 m c) :=
  (StableHlo.after_of_writes_sub hostOps1_2 _ hostOps1_2_writes (by decide)).trans (W3_v17 m c)

/-- Region 1 leaves the second product `hidden · [W2 | W3]`. -/
theorem W5_v19 : (W5 m c main_v19 : FVec Ideal S8192x14 .f32)
    = Cert.Spec.mm (Cert.Spec.hidden (aX m c) (aW m c) (ridxOf (aRow m c)) (cidxOf (aCol m c)) (aW1 m c) (aB1 m c))
        (concatenate S16x14 1 [⟨S16x7, aW2 m c⟩, ⟨S16x7, aW3 m c⟩] concatenates_S16x7_S16x7_S16x14_d1) := by
  refine (W5_out m c).trans ((final1 (VA4 m) c).trans ?_)
  show Cert.Spec.mm (W4 m c main_v17 : FVec Ideal S8192x16 .f32) (W4 m c main_v18 : FVec Ideal S16x14 .f32) = _
  rw [W4_v17 m c, W4_v18 m c]

/-- The weights' column is still in its buffer when the second stretch reads it. -/
theorem W5_v1 : (W5 m c main_v1 : FVec Ideal S524288x1 .f32) = wcolOf (aW m c) := by
  refine (W5_of m c main_v1 (by decide)).trans ?_
  refine (StableHlo.after_of_writes_sub hostOps1_2 _ hostOps1_2_writes (by decide)).trans ?_
  refine (StableHlo.after_of_writes_sub hostOps1_1 _ hostOps1_1_writes (by decide)).trans ?_
  refine (stretch1_v1 (W1 m c)).trans ?_
  simp only [wcolK]
  rw [W1_arg m c main_arg3 (by decide)]

/-! ## The 14-column aggregation, cut in halves -/

/-- Column `j < 7` of the aggregation of `h · [A | B]` is column `j` of the aggregation of `h · A`. -/
theorem agg_cat_left (w : FVec Ideal S524288 .f32) (r cc : S524288x1.Idx → BitVec 32) (h : FVec Ideal S8192x16 .f32)
    (A B : FVec Ideal S16x7 .f32) (n : Fin 8192) (j : Fin 7) :
    Cert.Spec.agg w r cc (Cert.Spec.mm h (concatenate S16x14 1 [⟨S16x7, A⟩, ⟨S16x7, B⟩] concatenates_S16x7_S16x7_S16x14_d1))
        (ix2 n (⟨j.val, by omega⟩ : Fin 14))
      = Cert.Spec.agg w r cc (Cert.Spec.mm h A) (ix2 n j) := by
  unfold Cert.Spec.agg Cert.Spec.scatterAddRows Cert.Spec.gatherRows Cert.Spec.mm
  refine congrArg (fun s : EReal => (0 : EReal) + s) ?_
  refine Finset.sum_congr rfl fun e _ => ?_
  refine congrArg (fun s : EReal => w (ix1 e) * s) ?_
  refine Finset.sum_congr rfl fun k _ => ?_
  refine congrArg (fun s : EReal => h (ix2 (Cert.Spec.srcRow 8192 (by decide) cc e) k) * s) ?_
  exact concatenate_pair_apply_left 1 A B concatenates_S16x7_S16x7_S16x14_d1 _ rfl (ix2 k j)
    (fun b => match b with | ⟨0, _⟩ => rfl | ⟨1, _⟩ => rfl)

/-- Column `7 + j` of the aggregation of `h · [A | B]` is column `j` of the aggregation of `h · B`. -/
theorem agg_cat_right (w : FVec Ideal S524288 .f32) (r cc : S524288x1.Idx → BitVec 32) (h : FVec Ideal S8192x16 .f32)
    (A B : FVec Ideal S16x7 .f32) (n : Fin 8192) (j : Fin 7) :
    Cert.Spec.agg w r cc (Cert.Spec.mm h (concatenate S16x14 1 [⟨S16x7, A⟩, ⟨S16x7, B⟩] concatenates_S16x7_S16x7_S16x14_d1))
        (ix2 n (⟨j.val + 7, by omega⟩ : Fin 14))
      = Cert.Spec.agg w r cc (Cert.Spec.mm h B) (ix2 n j) := by
  unfold Cert.Spec.agg Cert.Spec.scatterAddRows Cert.Spec.gatherRows Cert.Spec.mm
  refine congrArg (fun s : EReal => (0 : EReal) + s) ?_
  refine Finset.sum_congr rfl fun e _ => ?_
  refine congrArg (fun s : EReal => w (ix1 e) * s) ?_
  refine Finset.sum_congr rfl fun k _ => ?_
  refine congrArg (fun s : EReal => h (ix2 (Cert.Spec.srcRow 8192 (by decide) cc e) k) * s) ?_
  exact concatenate_pair_apply_right 1 A B concatenates_S16x7_S16x7_S16x14_d1 _ rfl rfl (ix2 k j)
    (fun b hb => match b, hb with | ⟨0, _⟩, _ => rfl | ⟨1, _⟩, hb => absurd rfl hb) rfl

/-- The second stretch leaves the latent sample. -/
theorem W6_v41 : (W6 m c main_v41 : FVec Ideal S8192x7 .f32)
    = Cert.Spec.latent (aX m c) (aW m c) (ridxOf (aRow m c)) (cidxOf (aCol m c)) (aEps m c) (aW1 m c) (aB1 m c) (aW2 m c) (aB2 m c) (aW3 m c) (aB3 m c) := by
  refine (stretch2_v41 (W5 m c)).trans ?_
  have hagg : agg14K (W5 m c) = Cert.Spec.agg (aW m c) (ridxOf (aRow m c)) (cidxOf (aCol m c))
      (Cert.Spec.mm (Cert.Spec.hidden (aX m c) (aW m c) (ridxOf (aRow m c)) (cidxOf (aCol m c)) (aW1 m c) (aB1 m c))
        (concatenate S16x14 1 [⟨S16x7, aW2 m c⟩, ⟨S16x7, aW3 m c⟩] concatenates_S16x7_S16x7_S16x14_d1)) := by
    unfold agg14K
    simp only [ridxK, cidxK]
    rw [W5_v1 m c, W5_v19 m c, W5_arg m c main_arg1 (by decide) (by decide) (by decide) (by decide) (by decide),
      W5_arg m c main_arg2 (by decide) (by decide) (by decide) (by decide) (by decide)]
    unfold wcolOf
    exact agg_stage scatter_S8192x14_S524288x1_S524288x14_1_0_0_1 rfl rfl rfl rfl
      gather_S8192x14_S524288x1_S524288x14_1_0_n_n_0_1_114 rfl rfl rfl rfl rfl rfl rfl _ _ _ _ _ _ _
  rw [hagg, W5_arg m c main_arg8 (by decide) (by decide) (by decide) (by decide) (by decide),
    W5_arg m c main_arg10 (by decide) (by decide) (by decide) (by decide) (by decide),
    W5_arg m c main_arg4 (by decide) (by decide) (by decide) (by decide) (by decide)]
  funext i
  obtain ⟨n, j, rfl⟩ : ∃ (n : Fin 8192) (j : Fin 7), i = ix2 n j := ⟨i 0, i 1, eq_ix2 i⟩
  simp only [addf_apply, mulf_apply, bias_bcast_apply]
  rw [extractStridedSlice_apply ![0, 0] _ slices_S8192x14_S8192x7_0_0 (ix2 n j) (ix2 n (⟨j.val, by omega⟩ : Fin 14))
      (fun a => by match a with
        | ⟨0, _⟩ => show n.val = 0 + n.val; omega
        | ⟨1, _⟩ => show j.val = 0 + j.val; omega),
    extractStridedSlice_apply ![0, 7] _ slices_S8192x14_S8192x7_0_7 (ix2 n j) (ix2 n (⟨j.val + 7, by omega⟩ : Fin 14))
      (fun a => by match a with
        | ⟨0, _⟩ => show n.val = 0 + n.val; omega
        | ⟨1, _⟩ => show j.val + 7 = 7 + j.val; omega),
    agg_cat_left, agg_cat_right]
  rw [bias_bcast_apply bcast_S1x7_S8192x7_0_1 bcast_S7_S1x7_1 (aB2 m c) (ix2 n j),
    bias_bcast_apply bcast_S1x7_S8192x7_0_1 bcast_S7_S1x7_1 (aB3 m c) (ix2 n j)]
  rfl

/-- Region 2 leaves the products of the latent sample's rows. -/
theorem W7_v42 : (W7 m c main_v42 : FVec Ideal S8192x8192 .f32)
    = Cert.Spec.mmT (Cert.Spec.latent (aX m c) (aW m c) (ridxOf (aRow m c)) (cidxOf (aCol m c)) (aEps m c) (aW1 m c) (aB1 m c) (aW2 m c) (aB2 m c) (aW3 m c) (aB3 m c))
        (Cert.Spec.latent (aX m c) (aW m c) (ridxOf (aRow m c)) (cidxOf (aCol m c)) (aEps m c) (aW1 m c) (aB1 m c) (aW2 m c) (aB2 m c) (aW3 m c) (aB3 m c)) := by
  refine (W7_out m c).trans ((final2 (VA6 m) c).trans ?_)
  show Cert.Spec.mmT (W6 m c main_v41 : FVec Ideal S8192x7 .f32) (W6 m c main_v41 : FVec Ideal S8192x7 .f32) = _
  rw [W6_v41 m c]

/-- THE RESULT: flattened, the specification. -/
theorem W8_v43 : (W8 m c main_v43 : FVec Ideal S67108864 .f32)
    = Cert.Spec.out (aX m c) (aW m c) (ridxOf (aRow m c)) (cidxOf (aCol m c)) (aEps m c) (aW1 m c) (aB1 m c) (aW2 m c) (aB2 m c) (aW3 m c) (aB3 m c) := by
  refine (stretch3_v43 (W7 m c)).trans ?_
  rw [W7_v42 m c]
  funext i
  exact flatten_apply _ _ i

/-- The kernel program's run, read: the result buffer ends at the specification of the arguments, the arguments as launched. -/
theorem value_run (ρ : Dev nD → PrngReg) : θ_run defs (onTc (τ := τ) (main (F := Ideal))) ⟨m, fun _ => 0, ρ⟩ (fun r => ∀ c : Dev nD,
      r.2.mem ((c.tc : Thread nD τ).loc main_v43)
        = Cert.Spec.out (aX m c) (aW m c) (ridxOf (aRow m c)) (cidxOf (aCol m c)) (aEps m c) (aW1 m c) (aB1 m c) (aW2 m c) (aB2 m c) (aW3 m c) (aB3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_v43 (by decide))).trans (W8_v43 m c),
     (h c _ (mem_uc main_arg0 (by decide))).trans (W8_of m c main_arg0 (by decide) (by decide) (by decide) (by decide) (by decide) (by decide) (by decide) (by decide)),
     (h c _ (mem_uc main_arg1 (by decide))).trans (W8_of m c main_arg1 (by decide) (by decide) (by decide) (by decide) (by decide) (by decide) (by decide) (by decide)),
     (h c _ (mem_uc main_arg2 (by decide))).trans (W8_of m c main_arg2 (by decide) (by decide) (by decide) (by decide) (by decide) (by decide) (by decide) (by decide)),
     (h c _ (mem_uc main_arg3 (by decide))).trans (W8_of m c main_arg3 (by decide) (by decide) (by decide) (by decide) (by decide) (by decide) (by decide) (by decide)),
     (h c _ (mem_uc main_arg4 (by decide))).trans (W8_of m c main_arg4 (by decide) (by decide) (by decide) (by decide) (by decide) (by decide) (by decide) (by decide)),
     (h c _ (mem_uc main_arg5 (by decide))).trans (W8_of m c main_arg5 (by decide) (by decide) (by decide) (by decide) (by decide) (by decide) (by decide) (by decide)),
     (h c _ (mem_uc main_arg6 (by decide))).trans (W8_of m c main_arg6 (by decide) (by decide) (by decide) (by decide) (by decide) (by decide) (by decide) (by decide)),
     (h c _ (mem_uc main_arg7 (by decide))).trans (W8_of m c main_arg7 (by decide) (by decide) (by decide) (by decide) (by decide) (by decide) (by decide) (by decide)),
     (h c _ (mem_uc main_arg8 (by decide))).trans (W8_of m c main_arg8 (by decide) (by decide) (by decide) (by decide) (by decide) (by decide) (by decide) (by decide)),
     (h c _ (mem_uc main_arg9 (by decide))).trans (W8_of m c main_arg9 (by decide) (by decide) (by decide) (by decide) (by decide) (by decide) (by decide) (by decide)),
     (h c _ (mem_uc main_arg10 (by decide))).trans (W8_of m c main_arg10 (by decide) (by decide) (by decide) (by decide) (by decide) (by decide) (by decide) (by decide))⟩)
    (run_all m ρ)

end Cert.KernelIdeal.Hand

end
-- ==== Proof.RefIsSpec.lean ====
/-
  The reference program's value is `Spec.out` of its arguments. Stage by stage: the first product is `Spec.mm`; each
  gather / scale / scatter-add block is `Spec.agg` at the destination and source words the program forms from its
  two integer arguments; bias and clip give `Spec.hidden`; the two heads and the sample give `Spec.latent`; the
  product with the transpose and the flattening give `Spec.out`.
-/
import proofs.«163352_j23356032156163_1_alg».proof.Proof.Gen.ReferenceIdeal.Read
import proofs.«163352_j23356032156163_1_alg».proof.Proof.Spec
import proofs.«163352_j23356032156163_1_alg».proof.Proof.LibRowSparse
import proofs.«163352_j23356032156163_1_alg».proof.Proof.LibGraphStages

noncomputable section

namespace Cert.RefIsSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.LibGraphStages

/-- The destination words as a column: the first integer argument, one word per edge. -/
def ridxOf (x1 : (⟨S524288, .i32⟩ : BufTy).Contents (Elt Ideal)) : (⟨S524288x1, .i32⟩ : BufTy).Contents (Elt Ideal) :=
  broadcastInDim S524288x1 ![0] bcast_S524288_S524288x1_0 x1

/-- The source words as a column: the second integer argument with `8192` added to the negative words. -/
def cidxOf (x2 : (⟨S524288, .i32⟩ : BufTy).Contents (Elt Ideal)) : (⟨S524288x1, .i32⟩ : BufTy).Contents (Elt Ideal) :=
  broadcastInDim S524288x1 ![0] bcast_S524288_S524288x1_0
    (select (cmpi .slt x2 (broadcastInDim S524288 ![] bcast_S_S524288 (constantI S_ 32 0#32)))
      (addi x2 (broadcastInDim S524288 ![] bcast_S_S524288 (constantI S_ 32 8192#32))) x2)

/-- The destination words of a memory. -/
def ridx (m : (ℓ : Loc nD τ sig) → Buf (Elt Ideal) ℓ) (c : Dev nD) : (⟨S524288x1, .i32⟩ : BufTy).Contents (Elt Ideal) :=
  ridxOf (m ((c.tc : Thread nD τ).loc main_arg1))

/-- The source words of a memory. -/
def cidx (m : (ℓ : Loc nD τ sig) → Buf (Elt Ideal) ℓ) (c : Dev nD) : (⟨S524288x1, .i32⟩ : BufTy).Contents (Elt Ideal) :=
  cidxOf (m ((c.tc : Thread nD τ).loc main_arg2))

section Stages
variable (x0 : (⟨S8192x512, .f32⟩ : BufTy).Contents (Elt Ideal)) (x1 x2 : (⟨S524288, .i32⟩ : BufTy).Contents (Elt Ideal)) (x3 : (⟨S524288, .f32⟩ : BufTy).Contents (Elt Ideal))
  (x4 : (⟨S8192x7, .f32⟩ : BufTy).Contents (Elt Ideal)) (x5 : (⟨S512x16, .f32⟩ : BufTy).Contents (Elt Ideal)) (x6 : (⟨S16, .f32⟩ : BufTy).Contents (Elt Ideal))
  (x7 : (⟨S16x7, .f32⟩ : BufTy).Contents (Elt Ideal)) (x8 : (⟨S7, .f32⟩ : BufTy).Contents (Elt Ideal)) (x9 : (⟨S16x7, .f32⟩ : BufTy).Contents (Elt Ideal)) (x10 : (⟨S7, .f32⟩ : BufTy).Contents (Elt Ideal))

/-! ## The index columns -/

theorem v7_eq : val_main_v7 (F := Ideal) x2 = cidxOf x2 := rfl
theorem v25_eq : val_main_v25 (F := Ideal) x2 = cidxOf x2 := rfl
theorem v42_eq : val_main_v42 (F := Ideal) x2 = cidxOf x2 := rfl
theorem v12_eq : val_main_v12 (F := Ideal) x1 = ridxOf x1 := rfl
theorem v30_eq : val_main_v30 (F := Ideal) x1 = ridxOf x1 := rfl
theorem v47_eq : val_main_v47 (F := Ideal) x1 = ridxOf x1 := rfl

/-! ## The hidden layer -/

/-- The first product. -/
theorem v0_eq : val_main_v0 (F := Ideal) x0 x5 = Cert.Spec.mm x0 x5 := by
  unfold val_main_v0
  exact dot_mm _ rfl rfl rfl rfl rfl rfl x0 x5

/-- The first aggregation. -/
theorem v13_eq : val_main_v13 (F := Ideal) x0 x1 x2 x3 x5
    = Cert.Spec.agg x3 (ridxOf x1) (cidxOf x2) (Cert.Spec.mm x0 x5) := by
  unfold val_main_v13 val_main_v11 val_main_cst val_main_v10 val_main_v9 val_main_v1 val_main_v8
  rw [v0_eq, v7_eq, v12_eq]
  exact agg_stage _ rfl rfl rfl rfl _ rfl rfl rfl rfl rfl rfl rfl _ _ _ x3 (ridxOf x1) (cidxOf x2) (Cert.Spec.mm x0 x5)

/-- Bias and clip: the hidden layer. -/
theorem v17_eq : val_main_v17 (F := Ideal) x0 x1 x2 x3 x5 x6
    = Cert.Spec.hidden x0 x3 (ridxOf x1) (cidxOf x2) x5 x6 := by
  unfold val_main_v17 val_main_v16 val_main_v15 val_main_v14 val_main_call0_v0 val_main_call0_cst
  rw [v13_eq]
  refine (congrArg (fun A => maximumf (F := Ideal) (φ := .f32) A _) (bias_stage _ _ _ x6)).trans ?_
  exact relu_stage _ _

/-! ## The two heads -/

/-- The mean head's product. -/
theorem v18_eq : val_main_v18 (F := Ideal) x0 x1 x2 x3 x5 x6 x7
    = Cert.Spec.mm (Cert.Spec.hidden x0 x3 (ridxOf x1) (cidxOf x2) x5 x6) x7 := by
  unfold val_main_v18
  rw [v17_eq]
  exact dot_mm _ rfl rfl rfl rfl rfl rfl _ x7

/-- The mean head's aggregation. -/
theorem v31_eq : val_main_v31 (F := Ideal) x0 x1 x2 x3 x5 x6 x7
    = Cert.Spec.agg x3 (ridxOf x1) (cidxOf x2) (Cert.Spec.mm (Cert.Spec.hidden x0 x3 (ridxOf x1) (cidxOf x2) x5 x6) x7) := by
  unfold val_main_v31 val_main_v29 val_main_cst_3 val_main_v28 val_main_v27 val_main_v19 val_main_v26
  rw [v18_eq, v25_eq, v30_eq]
  exact agg_stage _ rfl rfl rfl rfl _ rfl rfl rfl rfl rfl rfl rfl _ _ _ x3 (ridxOf x1) (cidxOf x2) _

/-- The mean head with its bias. -/
theorem v34_eq : val_main_v34 (F := Ideal) x0 x1 x2 x3 x5 x6 x7 x8
    = fun i => Cert.Spec.agg x3 (ridxOf x1) (cidxOf x2)
        (Cert.Spec.mm (Cert.Spec.hidden x0 x3 (ridxOf x1) (cidxOf x2) x5 x6) x7) i + x8 (ix1 (i 1)) := by
  unfold val_main_v34 val_main_v33 val_main_v32
  rw [v31_eq]
  exact bias_stage _ _ _ x8

/-- The scale head's product. -/
theorem v35_eq : val_main_v35 (F := Ideal) x0 x1 x2 x3 x5 x6 x9
    = Cert.Spec.mm (Cert.Spec.hidden x0 x3 (ridxOf x1) (cidxOf x2) x5 x6) x9 := by
  unfold val_main_v35
  rw [v17_eq]
  exact dot_mm _ rfl rfl rfl rfl rfl rfl _ x9

/-- The scale head's aggregation. -/
theorem v48_eq : val_main_v48 (F := Ideal) x0 x1 x2 x3 x5 x6 x9
    = Cert.Spec.agg x3 (ridxOf x1) (cidxOf x2) (Cert.Spec.mm (Cert.Spec.hidden x0 x3 (ridxOf x1) (cidxOf x2) x5 x6) x9) := by
  unfold val_main_v48 val_main_v46 val_main_cst_6 val_main_v45 val_main_v44 val_main_v36 val_main_v43
  rw [v35_eq, v42_eq, v47_eq]
  exact agg_stage _ rfl rfl rfl rfl _ rfl rfl rfl rfl rfl rfl rfl _ _ _ x3 (ridxOf x1) (cidxOf x2) _

/-- The scale head with its bias. -/
theorem v51_eq : val_main_v51 (F := Ideal) x0 x1 x2 x3 x5 x6 x9 x10
    = fun i => Cert.Spec.agg x3 (ridxOf x1) (cidxOf x2)
        (Cert.Spec.mm (Cert.Spec.hidden x0 x3 (ridxOf x1) (cidxOf x2) x5 x6) x9) i + x10 (ix1 (i 1)) := by
  unfold val_main_v51 val_main_v50 val_main_v49
  rw [v48_eq]
  exact bias_stage _ _ _ x10

/-! ## The sample and the result -/

/-- The latent sample. -/
theorem v53_eq : val_main_v53 (F := Ideal) x0 x1 x2 x3 x4 x5 x6 x7 x8 x9 x10
    = Cert.Spec.latent x0 x3 (ridxOf x1) (cidxOf x2) x4 x5 x6 x7 x8 x9 x10 := by
  unfold val_main_v53 val_main_v52
  rw [v34_eq, v51_eq]
  rfl

/-- The product with the transpose. -/
theorem v55_eq : val_main_v55 (F := Ideal) x0 x1 x2 x3 x4 x5 x6 x7 x8 x9 x10
    = Cert.Spec.mmT (Cert.Spec.latent x0 x3 (ridxOf x1) (cidxOf x2) x4 x5 x6 x7 x8 x9 x10)
        (Cert.Spec.latent x0 x3 (ridxOf x1) (cidxOf x2) x4 x5 x6 x7 x8 x9 x10) := by
  unfold val_main_v55 val_main_v54
  rw [v53_eq]
  exact dot_mmT _ rfl rfl rfl rfl rfl rfl _ _ _

/-- The flattened result. -/
theorem v56_eq : val_main_v56 (F := Ideal) x0 x1 x2 x3 x4 x5 x6 x7 x8 x9 x10
    = Cert.Spec.out x0 x3 (ridxOf x1) (cidxOf x2) x4 x5 x6 x7 x8 x9 x10 := by
  unfold val_main_v56
  rw [v55_eq]
  funext i
  exact flatten_apply _ _ i

end Stages

/-- THE REFERENCE'S VALUE: the result buffer's term is `Spec.out` of the arguments, at the destination and source
    words `ridx`, `cidx`. -/
theorem ref_is_spec (m : (ℓ : Loc nD τ sig) → Buf (Elt Ideal) ℓ) (c : Dev nD) :
    Cert.ReferenceIdeal.Value.res_main_v56 (F := Ideal) m c
      = Cert.Spec.out (m ((c.tc : Thread nD τ).loc main_arg0)) (m ((c.tc : Thread nD τ).loc main_arg3)) (ridx m c) (cidx m c)
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  rw [val_main_v56_eq]
  exact v56_eq _ _ _ _ _ _ _ _ _ _ _

end Cert.RefIsSpec

end
-- ==== Proof.lean ====
/-
  The certificate of a graph-network forward pass: node features X, a weighted edge list, two layers.
  The kernel program computes X·W1, h·[W2|W3] and z·zᵀ in three kernel regions, block by block on the matrix unit,
  and the graph aggregations, biases, clipping and sampling as host operations between them; the reference computes
  everything as host operations, with h·W2 and h·W3 as two products and two 7-column aggregations. On the extended
  reals both end at one function of the arguments (Proof/Spec.lean `Cert.Spec.out`): a blocked matrix product is
  the whole product, and the 14-column aggregation cut in two halves is the two 7-column aggregations, since an
  aggregation acts on each column by itself. No finiteness is needed: only the order and grouping of sums differ.
  Each program's frame comes from its run: three kernel regions among host stretches, no argument array written.
-/
import proofs.«163352_j23356032156163_1_alg».proof.Defs
import proofs.«163352_j23356032156163_1_alg».proof.Proof.Gen.Kernel
import proofs.«163352_j23356032156163_1_alg».proof.Proof.Gen.KernelIdeal
import proofs.«163352_j23356032156163_1_alg».proof.Proof.Gen.ReferenceIdeal
import proofs.«163352_j23356032156163_1_alg».proof.Proof.Gen.ReferenceIdeal.Run
import proofs.«163352_j23356032156163_1_alg».proof.Proof.Gen.ReferenceIdeal.Read
import proofs.«163352_j23356032156163_1_alg».proof.Proof.Gen.Pre_finite_inputs
import proofs.«163352_j23356032156163_1_alg».proof.Proof.K.Run
import proofs.«163352_j23356032156163_1_alg».proof.Proof.KI.Run
import proofs.«163352_j23356032156163_1_alg».proof.Proof.KI.Value
import proofs.«163352_j23356032156163_1_alg».proof.Proof.RefIsSpec
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_k [Cert.Kernel.Facts] [Cert.Pre_finite_inputs.Facts] : Cert.frame_Kernel :=
  fun m ρ _ => Cert.Kernel.Hand.frame (F := Bits) m ρ

/-- So does the idealized kernel program. -/
theorem frame_ki [Cert.KernelIdeal.Facts] [Cert.Pre_finite_inputs.Facts] : Cert.frame_KernelIdeal :=
  fun m ρ _ => Cert.KernelIdeal.Hand.frame (F := Ideal) m ρ

/-- The reference is host operations only: its run, with the result forgotten. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs, run from memories agreeing on the arguments, end with the result buffer at one function
    of the arguments: the kernel program by its run read stage by stage, the reference by its run read operation by
    operation; the two index columns and the weights are built from the arguments by the same operations. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.RefIsSpec.ref_is_spec m' c]
  unfold Cert.RefIsSpec.ridx Cert.RefIsSpec.cidx
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  rfl

theorem claim : Cert.Claim :=
  ⟨Cert.Kernel.Gen.facts, Cert.KernelIdeal.Gen.facts, Cert.ReferenceIdeal.Gen.facts, Cert.Pre_finite_inputs.Gen.facts,
    @frame_k Cert.Kernel.Gen.facts Cert.Pre_finite_inputs.Gen.facts,
    @frame_ki Cert.KernelIdeal.Gen.facts Cert.Pre_finite_inputs.Gen.facts,
    @frame_ri Cert.ReferenceIdeal.Gen.facts Cert.Pre_finite_inputs.Gen.facts,
    preserves,
    @algebraic Cert.KernelIdeal.Gen.facts Cert.ReferenceIdeal.Gen.facts Cert.Pre_finite_inputs.Gen.facts⟩

end Cert.Proof

end
